-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : FVec F S256x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x256 : Shape := ⟨2, ![2000, 256]⟩
abbrev S2000x128 : Shape := ⟨2, ![2000, 128]⟩
abbrev S1700000x128 : Shape := ⟨2, ![1700000, 128]⟩
abbrev S1x128 : Shape := ⟨2, ![1, 128]⟩
abbrev S100000x40 : Shape := ⟨2, ![100000, 40]⟩
abbrev S2000x40 : Shape := ⟨2, ![2000, 40]⟩
abbrev S1700000x40 : Shape := ⟨2, ![1700000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 107
  | .vmem => 34
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S1700000x1, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x128, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x40, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x40, .f32⟩
  | .hbm, ⟨98, _⟩ => ⟨S1700000x40, .f32⟩
  | .hbm, ⟨99, _⟩ => ⟨S1700000x40, .f32⟩
  | .hbm, ⟨100, _⟩ => ⟨S_, .f32⟩
  | .hbm, ⟨101, _⟩ => ⟨S100000x40, .f32⟩
  | .hbm, ⟨102, _⟩ => ⟨S1700000x1, .i32⟩
  | .hbm, ⟨103, _⟩ => ⟨S100000x40, .f32⟩
  | .hbm, ⟨104, _⟩ => ⟨S1x40, .f32⟩
  | .hbm, ⟨105, _⟩ => ⟨S100000x40, .f32⟩
  | .hbm, ⟨106, _⟩ => ⟨S100000x40, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x40, .f32⟩
  | .local _ .vmem, ⟨23, _⟩ => ⟨S2000x40, .f32⟩
  | .local _ .vmem, ⟨24, _⟩ => ⟨S2000x40, .f32⟩
  | .local _ .vmem, ⟨25, _⟩ => ⟨S2000x40, .f32⟩
  | .local _ .vmem, ⟨26, _⟩ => ⟨S2000x40, .f32⟩
  | .local _ .vmem, ⟨27, _⟩ => ⟨S1x40, .f32⟩
  | .local _ .vmem, ⟨28, _⟩ => ⟨S2000x40, .f32⟩
  | .local _ .vmem, ⟨29, _⟩ => ⟨S2000x40, .f32⟩
  | .local _ .vmem, ⟨30, _⟩ => ⟨S2000x40, .f32⟩
  | .local _ .vmem, ⟨31, _⟩ => ⟨S2000x40, .f32⟩
  | .local _ .vmem, ⟨32, _⟩ => ⟨S2000x40, .f32⟩
  | .local _ .vmem, ⟨33, _⟩ => ⟨S2000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x40 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x40 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x256_S256x128_S2000x128_1_0_0_1_n_n_wf : DotDims.WF S2000x256 S256x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x40.size a ≤ S100000x40.size a
  hwx4_2 : ∀ i : grid4.Coords, EltTy.bits .f32 = 32 ∨ (Rect.block (s := S100000x40) S2000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x40.size a ≤ S100000x40.size a
  hwx5_0 : ∀ i : grid5.Coords, EltTy.bits .f32 = 32 ∨ (Rect.block (s := S100000x40) S2000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x40.size a ≤ S100000x40.size a
  hwx5_2 : ∀ i : grid5.Coords, EltTy.bits .f32 = 32 ∨ (Rect.block (s := S100000x40) S2000x40.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x40.size a ≤ S100000x40.size a
  hwx6_0 : ∀ i : grid6.Coords, EltTy.bits .f32 = 32 ∨ (Rect.block (s := S100000x40) S2000x40.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x40.size a ≤ S100000x40.size a
  hwx6_1 : ∀ i : grid6.Coords, EltTy.bits .f32 = 32 ∨ (Rect.block (s := S100000x40) S2000x40.size (cc6_transform_1 i) (hinb6_1 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S2000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S2000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S2000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v77) S2000x40.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v78) S2000x40.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 133
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S1700000x1, .f32⟩
  | 52 => ⟨S100000x128, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x128, .f32⟩
  | 84 => ⟨S1700000x128, .f32⟩
  | 85 => ⟨S1700000x128, .f32⟩
  | 86 => ⟨S_, .f32⟩
  | 87 => ⟨S100000x128, .f32⟩
  | 88 => ⟨S1700000x1, .i32⟩
  | 89 => ⟨S100000x128, .f32⟩
  | 90 => ⟨S1x128, .f32⟩
  | 91 => ⟨S100000x128, .f32⟩
  | 92 => ⟨S100000x128, .f32⟩
  | 93 => ⟨S_, .f32⟩
  | 94 => ⟨S100000x128, .f32⟩
  | 95 => ⟨S100000x128, .f32⟩
  | 96 => ⟨S100000x40, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000x40, .f32⟩
  | 106 => ⟨S1700000x40, .f32⟩
  | 107 => ⟨S1700000x40, .f32⟩
  | 108 => ⟨S_, .f32⟩
  | 109 => ⟨S100000x40, .f32⟩
  | 110 => ⟨S1700000x1, .i32⟩
  | 111 => ⟨S100000x40, .f32⟩
  | 112 => ⟨S1x40, .f32⟩
  | 113 => ⟨S100000x40, .f32⟩
  | 114 => ⟨S100000x40, .f32⟩
  | 115 => ⟨S_, .f32⟩
  | 116 => ⟨S100000x40, .f32⟩
  | 117 => ⟨S100000x40, .f32⟩
  | 118 => ⟨S_, .f32⟩
  | 119 => ⟨S100000, .f32⟩
  | 120 => ⟨S_, .f32⟩
  | 121 => ⟨S100000, .f32⟩
  | 122 => ⟨S100000, .f32⟩
  | 123 => ⟨S100000x1, .f32⟩
  | 124 => ⟨S100000x40, .f32⟩
  | 125 => ⟨S100000x40, .f32⟩
  | 126 => ⟨S100000x40, .f32⟩
  | 127 => ⟨S_, .f32⟩
  | _ => ⟨S100000x256, .f32⟩

abbrev hbmTy0_1 (i : Nat) : BufTy := match i % 128 with
  | 0 => ⟨S100000, .f32⟩
  | 1 => ⟨S100000x1, .f32⟩
  | 2 => ⟨S100000x1, .f32⟩
  | 3 => ⟨S100000x40, .f32⟩
  | 4 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_call2_cst : Ref sig .tc := ⟨.hbm, 93, rfl⟩
abbrev main_call2_v0 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_c_14 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_15 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_call3_cst : Ref sig .tc := ⟨.hbm, 115, rfl⟩
abbrev main_call3_v0 : Ref sig .tc := ⟨.hbm, 116, rfl⟩
abbrev main_v83 : Ref sig .tc := ⟨.hbm, 117, rfl⟩
abbrev main_call4_cst : Ref sig .tc := ⟨.hbm, 118, rfl⟩
abbrev main_call4_v0 : Ref sig .tc := ⟨.hbm, 119, rfl⟩
abbrev main_call4_cst_0 : Ref sig .tc := ⟨.hbm, 120, rfl⟩
abbrev main_call4_v1 : Ref sig .tc := ⟨.hbm, 121, rfl⟩
abbrev main_call4_v2 : Ref sig .tc := ⟨.hbm, 122, rfl⟩
abbrev main_call4_v3 : Ref sig .tc := ⟨.hbm, 123, rfl⟩
abbrev main_call4_v4 : Ref sig .tc := ⟨.hbm, 124, rfl⟩
abbrev main_call4_v5 : Ref sig .tc := ⟨.hbm, 125, rfl⟩
abbrev main_call4_v6 : Ref sig .tc := ⟨.hbm, 126, rfl⟩
abbrev main_call4_cst_1 : Ref sig .tc := ⟨.hbm, 127, rfl⟩
abbrev main_call4_v7 : Ref sig .tc := ⟨.hbm, 128, rfl⟩
abbrev main_call4_v8 : Ref sig .tc := ⟨.hbm, 129, rfl⟩
abbrev main_call4_v9 : Ref sig .tc := ⟨.hbm, 130, rfl⟩
abbrev main_call4_v10 : Ref sig .tc := ⟨.hbm, 131, rfl⟩
abbrev main_v84 : Ref sig .tc := ⟨.hbm, 132, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.RunValue.lean ====
/-
  The idealized kernel's run with its result named.  The program is seven pipelined regions among stretches of host
  operations; after the last region every unscoped buffer of a core holds the final boundary contents `W13`, so the
  result buffer holds `W13` at the result's reference and every argument is as launched.
-/
import proofs.«131590_j68728066670865_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result buffer at the last boundary's contents and the
    eight arguments unchanged. -/
theorem run : θ_run defs (onTc (τ := τ) (main (F := F))) ⟨m, fun _ => 0, ρ⟩ (fun r => ∀ c : Dev nD,
      r.2.mem ((c.tc : Thread nD τ).loc main_v78) = W13 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v78 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c)⟩)

end Cert.KernelIdeal.RunValue

end
-- ==== Proof.Carry.lean ====
/-
  Which buffers the later parts of the program find unchanged.  The message sources, the message targets and the edge
  weights are computed once, before the first region, and no later stretch of host operations and no region writes them;
  the weight matrices and bias vectors are arguments that nothing writes.  Each lemma walks one such buffer back from the
  boundary where it is read to the boundary where it was last written (or to the launch).
-/
import proofs.«131590_j68728066670865_1_alg».proof.Proof.Gen.KernelIdeal.Frame

set_option maxRecDepth 16384

noncomputable section

namespace Cert.KernelIdeal.Carry

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- A stretch of host operations leaves a buffer it does not write as it found it. -/
macro "skip_host " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## The arguments, from where a region or a host operation reads them back to the launch -/

theorem main_arg0_W3_W0 (c : Dev nD) : W3 m ρ c (Proc.devRef .tc main_arg0) = W0 m ρ c (Proc.devRef .tc main_arg0) :=
  calc W3 m ρ c (Proc.devRef .tc main_arg0)
    _ = W2 m ρ c (Proc.devRef .tc main_arg0) := by skip_host hostOps0_2
    _ = W1 m ρ c (Proc.devRef .tc main_arg0) := by skip_host hostOps0_1
    _ = W0 m ρ c (Proc.devRef .tc main_arg0) := by skip_host hostOps0

theorem main_arg2_W3_W0 (c : Dev nD) : W3 m ρ c (Proc.devRef .tc main_arg2) = W0 m ρ c (Proc.devRef .tc main_arg2) :=
  calc W3 m ρ c (Proc.devRef .tc main_arg2)
    _ = W2 m ρ c (Proc.devRef .tc main_arg2) := by skip_host hostOps0_2
    _ = W1 m ρ c (Proc.devRef .tc main_arg2) := by skip_host hostOps0_1
    _ = W0 m ρ c (Proc.devRef .tc main_arg2) := by skip_host hostOps0

theorem main_arg3_W4_W0 (c : Dev nD) : W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := by skip_host hostOps0_2
    _ = W1 m ρ c (Proc.devRef .tc main_arg3) := by skip_host hostOps0_1
    _ = W0 m ρ c (Proc.devRef .tc main_arg3) := by skip_host hostOps0

theorem main_arg4_W6_W0 (c : Dev nD) : W6 m ρ c (Proc.devRef .tc main_arg4) = W0 m ρ c (Proc.devRef .tc main_arg4) :=
  calc W6 m ρ c (Proc.devRef .tc main_arg4)
    _ = W5 m ρ c (Proc.devRef .tc main_arg4) := W6_of_ne m ρ c main_arg4 (by decide)
    _ = W4 m ρ c (Proc.devRef .tc main_arg4) := by skip_host hostOps1
    _ = W3 m ρ c (Proc.devRef .tc main_arg4) := W4_of_ne m ρ c main_arg4 (by decide)
    _ = W2 m ρ c (Proc.devRef .tc main_arg4) := by skip_host hostOps0_2
    _ = W1 m ρ c (Proc.devRef .tc main_arg4) := by skip_host hostOps0_1
    _ = W0 m ρ c (Proc.devRef .tc main_arg4) := by skip_host hostOps0

theorem main_arg5_W7_W0 (c : Dev nD) : W7 m ρ c (Proc.devRef .tc main_arg5) = W0 m ρ c (Proc.devRef .tc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := by skip_host hostOps1
    _ = W3 m ρ c (Proc.devRef .tc main_arg5) := W4_of_ne m ρ c main_arg5 (by decide)
    _ = W2 m ρ c (Proc.devRef .tc main_arg5) := by skip_host hostOps0_2
    _ = W1 m ρ c (Proc.devRef .tc main_arg5) := by skip_host hostOps0_1
    _ = W0 m ρ c (Proc.devRef .tc main_arg5) := by skip_host hostOps0

theorem main_arg6_W9_W0 (c : Dev nD) : W9 m ρ c (Proc.devRef .tc main_arg6) = W0 m ρ c (Proc.devRef .tc main_arg6) :=
  calc W9 m ρ c (Proc.devRef .tc main_arg6)
    _ = W8 m ρ c (Proc.devRef .tc main_arg6) := W9_of_ne m ρ c main_arg6 (by decide)
    _ = W7 m ρ c (Proc.devRef .tc main_arg6) := by skip_host hostOps3
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := by skip_host hostOps1
    _ = W3 m ρ c (Proc.devRef .tc main_arg6) := W4_of_ne m ρ c main_arg6 (by decide)
    _ = W2 m ρ c (Proc.devRef .tc main_arg6) := by skip_host hostOps0_2
    _ = W1 m ρ c (Proc.devRef .tc main_arg6) := by skip_host hostOps0_1
    _ = W0 m ρ c (Proc.devRef .tc main_arg6) := by skip_host hostOps0

theorem main_arg7_W10_W0 (c : Dev nD) : W10 m ρ c (Proc.devRef .tc main_arg7) = W0 m ρ c (Proc.devRef .tc main_arg7) :=
  calc W10 m ρ c (Proc.devRef .tc main_arg7)
    _ = W9 m ρ c (Proc.devRef .tc main_arg7) := W10_of_ne m ρ c main_arg7 (by decide)
    _ = W8 m ρ c (Proc.devRef .tc main_arg7) := W9_of_ne m ρ c main_arg7 (by decide)
    _ = W7 m ρ c (Proc.devRef .tc main_arg7) := by skip_host hostOps3
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by skip_host hostOps1
    _ = W3 m ρ c (Proc.devRef .tc main_arg7) := W4_of_ne m ρ c main_arg7 (by decide)
    _ = W2 m ρ c (Proc.devRef .tc main_arg7) := by skip_host hostOps0_2
    _ = W1 m ρ c (Proc.devRef .tc main_arg7) := by skip_host hostOps0_1
    _ = W0 m ρ c (Proc.devRef .tc main_arg7) := by skip_host hostOps0

/-! ## Sources, targets and weights, from the three aggregations back to where they were computed -/

theorem main_v3_W4_W3 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem main_v3_W7_W4 (c : Dev nD) : W7 m ρ c (Proc.devRef .tc main_v3) = W4 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by skip_host hostOps1

theorem main_v3_W10_W7 (c : Dev nD) : W10 m ρ c (Proc.devRef .tc main_v3) = W7 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := by skip_host hostOps3

theorem main_v6_W4_W3 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem main_v6_W7_W4 (c : Dev nD) : W7 m ρ c (Proc.devRef .tc main_v6) = W4 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by skip_host hostOps1

theorem main_v6_W10_W7 (c : Dev nD) : W10 m ρ c (Proc.devRef .tc main_v6) = W7 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := by skip_host hostOps3

theorem main_v32_W4_W3 (c : Dev nD) : W4 m ρ c (Proc.devRef .tc main_v32) = W3 m ρ c (Proc.devRef .tc main_v32) :=
  calc W4 m ρ c (Proc.devRef .tc main_v32)
    _ = W3 m ρ c (Proc.devRef .tc main_v32) := W4_of_ne m ρ c main_v32 (by decide)

theorem main_v32_W7_W4 (c : Dev nD) : W7 m ρ c (Proc.devRef .tc main_v32) = W4 m ρ c (Proc.devRef .tc main_v32) :=
  calc W7 m ρ c (Proc.devRef .tc main_v32)
    _ = W6 m ρ c (Proc.devRef .tc main_v32) := W7_of_ne m ρ c main_v32 (by decide)
    _ = W5 m ρ c (Proc.devRef .tc main_v32) := W6_of_ne m ρ c main_v32 (by decide)
    _ = W4 m ρ c (Proc.devRef .tc main_v32) := by skip_host hostOps1

theorem main_v32_W10_W7 (c : Dev nD) : W10 m ρ c (Proc.devRef .tc main_v32) = W7 m ρ c (Proc.devRef .tc main_v32) :=
  calc W10 m ρ c (Proc.devRef .tc main_v32)
    _ = W9 m ρ c (Proc.devRef .tc main_v32) := W10_of_ne m ρ c main_v32 (by decide)
    _ = W8 m ρ c (Proc.devRef .tc main_v32) := W9_of_ne m ρ c main_v32 (by decide)
    _ = W7 m ρ c (Proc.devRef .tc main_v32) := by skip_host hostOps3

/-! ## Sources and targets across the two short stretches before the first region -/

theorem main_v3_W3_W1 (c : Dev nD) : W3 m ρ c (Proc.devRef .tc main_v3) = W1 m ρ c (Proc.devRef .tc main_v3) :=
  calc W3 m ρ c (Proc.devRef .tc main_v3)
    _ = W2 m ρ c (Proc.devRef .tc main_v3) := by skip_host hostOps0_2
    _ = W1 m ρ c (Proc.devRef .tc main_v3) := by skip_host hostOps0_1

theorem main_v6_W3_W1 (c : Dev nD) : W3 m ρ c (Proc.devRef .tc main_v6) = W1 m ρ c (Proc.devRef .tc main_v6) :=
  calc W3 m ρ c (Proc.devRef .tc main_v6)
    _ = W2 m ρ c (Proc.devRef .tc main_v6) := by skip_host hostOps0_2
    _ = W1 m ρ c (Proc.devRef .tc main_v6) := by skip_host hostOps0_1

theorem main_v3_W2_W1 (c : Dev nD) : W2 m ρ c (Proc.devRef .tc main_v3) = W1 m ρ c (Proc.devRef .tc main_v3) :=
  calc W2 m ρ c (Proc.devRef .tc main_v3)
    _ = W1 m ρ c (Proc.devRef .tc main_v3) := by skip_host hostOps0_1

theorem main_v6_W2_W1 (c : Dev nD) : W2 m ρ c (Proc.devRef .tc main_v6) = W1 m ρ c (Proc.devRef .tc main_v6) :=
  calc W2 m ρ c (Proc.devRef .tc main_v6)
    _ = W1 m ρ c (Proc.devRef .tc main_v6) := by skip_host hostOps0_1

end Cert.KernelIdeal.Carry

end
-- ==== Proof.MatMul0.lean ====
/-
  Region 0 of the idealized kernel: a [100000, 256] array times a [256, 128] matrix, 2000 rows at a time.  At the ideal
  values the rounding of both operands to bf16 is the identity and the product into a zero accumulator is the plain sum over
  the inner index, so every row tile is the restriction of the one whole product, and the 50 tiles cover the rows.
-/
import proofs.«131590_j68728066670865_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MatMul0

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem origin : (![0, 0] : Fin 2 → Nat) = fun _ => 0 := funext fun a => by fin_cases a <;> rfl

/-- Entry (r, k) of the left operand and entry (k, j) of the right one, for the output entry `i` = (r, j). -/
abbrev lrow (i : S100000x128.Idx) (k : Fin 256) : S100000x256.Idx := fun a => match a with
  | ⟨0, _⟩ => ⟨(i 0).val, (i 0).isLt⟩
  | ⟨1, _⟩ => ⟨k.val, k.isLt⟩
abbrev rcol (i : S100000x128.Idx) (k : Fin 256) : S256x128.Idx := fun a => match a with
  | ⟨0, _⟩ => ⟨k.val, k.isLt⟩
  | ⟨1, _⟩ => ⟨(i 1).val, (i 1).isLt⟩

/-- The whole product, entry by entry: the sum over the inner index. -/
def product (x : FVec Ideal S100000x256 .f32) (w : FVec Ideal S256x128 .f32) : FVec Ideal S100000x128 .f32 :=
  fun i => ∑ k : Fin 256, x (lrow i k) * w (rcol i k)

/-- The same two entries inside a tile of 2000 rows. -/
abbrev trow (j : S2000x128.Idx) (k : Fin 256) : S2000x256.Idx := fun a => match a with
  | ⟨0, _⟩ => ⟨(j 0).val, (j 0).isLt⟩
  | ⟨1, _⟩ => ⟨k.val, k.isLt⟩
abbrev tcol (j : S2000x128.Idx) (k : Fin 256) : S256x128.Idx := fun a => match a with
  | ⟨0, _⟩ => ⟨k.val, k.isLt⟩
  | ⟨1, _⟩ => ⟨(j 1).val, (j 1).isLt⟩

theorem lhs_0 (j : S2000x128.Idx) (q : dot_S2000x256_S256x128_S2000x128_1_0_0_1_n_n.contr.Idx) : (dot_S2000x256_S256x128_S2000x128_1_0_0_1_n_n.lhsIdx j q 0).val = (j 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_1 (j : S2000x128.Idx) (q : dot_S2000x256_S256x128_S2000x128_1_0_0_1_n_n.contr.Idx) : (dot_S2000x256_S256x128_S2000x128_1_0_0_1_n_n.lhsIdx j q 1).val = (q ⟨0, by decide⟩).val :=
  dot_S2000x256_S256x128_S2000x128_1_0_0_1_n_n.lhsIdx_val_of_single rfl j q
theorem rhs_0 (j : S2000x128.Idx) (q : dot_S2000x256_S256x128_S2000x128_1_0_0_1_n_n.contr.Idx) : (dot_S2000x256_S256x128_S2000x128_1_0_0_1_n_n.rhsIdx j q 0).val = (q ⟨0, by decide⟩).val :=
  dot_S2000x256_S256x128_S2000x128_1_0_0_1_n_n.rhsIdx_val_of_single rfl j q
theorem rhs_1 (j : S2000x128.Idx) (q : dot_S2000x256_S256x128_S2000x128_1_0_0_1_n_n.contr.Idx) : (dot_S2000x256_S256x128_S2000x128_1_0_0_1_n_n.rhsIdx j q 1).val = (j 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The tile's arithmetic at an entry of the tile: the sum over the inner index of the products. -/
theorem tile_apply (x0 : Vec Ideal S2000x256 .f32) (x1 : Vec Ideal S256x128 .f32) (j : S2000x128.Idx) :
    k0_pay1 x0 x1 j = ∑ k : Fin 256, x0 (trow j k) * x1 (tcol j k) := by
  unfold k0_pay1
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx j ((ValueIdx.contrEquiv1 dot_S2000x256_S256x128_S2000x128_1_0_0_1_n_n 256 rfl rfl).symm k) = trow j k := funext fun a => Fin.ext (by
    match a with
    | ⟨0, _⟩ => exact lhs_0 _ _
    | ⟨1, _⟩ => exact (lhs_1 _ _).trans hk)
  have er : dot_S2000x256_S256x128_S2000x128_1_0_0_1_n_n.rhsIdx j ((ValueIdx.contrEquiv1 dot_S2000x256_S256x128_S2000x128_1_0_0_1_n_n 256 rfl rfl).symm k) = tcol j k := funext fun a => Fin.ext (by
    match a with
    | ⟨0, _⟩ => exact (rhs_0 _ _).trans hk
    | ⟨1, _⟩ => exact rhs_1 _ _)
  rw [el, er]
  rfl

/-- Where each window's tile sits: the tall windows at row tile `t`, the matrix window at its only block. -/
theorem tile_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What tile `t` writes back is tile `t` of the whole product of the two arrays as the region finds them. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero origin]
  simp only [View.ld_unit_zero (S := S2000x256) origin, View.ld_unit_zero (S := S256x128) origin]
  obtain ⟨e0, e1, e2, e3, e4, e5⟩ := tile_positions t
  funext j
  refine (tile_apply (iblk0 V c 0 t) (iblk0 V c 1 t) j).trans ?_
  show ∑ k : Fin 256, FloatOps.mulf (F := Ideal) (φ := .f32) (V c main_arg0 (((cfg0.win 0).blk t).view.emb (trow j k))) (V c main_arg2 (((cfg0.win 1).blk t).view.emb (tcol j k)))
    = ∑ k : Fin 256, FloatOps.mulf (F := Ideal) (φ := .f32) (V c main_arg0 (lrow (((cfg0.win 2).blk t).view.emb j) k)) (V c main_arg2 (rcol (((cfg0.win 2).blk t).view.emb j) k))
  refine Finset.sum_congr rfl fun k _ => ?_
  have h0 : ((cfg0.win 0).blk t).view.emb (trow j k) = lrow (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  have h1 : ((cfg0.win 1).blk t).view.emb (tcol j k) = rcol (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  rw [h0, h1]

/-- An index of the array is in tile `t` iff each coordinate is in the tile's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v33).slice (win0_2.rect t)).set ↔ _
  rw [View.set_slice_whole, Rect.mem_set_unit]
  exact Iff.rfl

/-- Row `r` lies in row tile `r / 2000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  refine ⟨⟨(i 0).val / 2000, by rw [hN]; omega⟩, flush0_2 _, ?_⟩
  rw [mem_blk]
  obtain ⟨e0, e1, e2, e3, e4, e5⟩ := tile_positions ⟨(i 0).val / 2000, by rw [hN]; omega⟩
  intro a
  match a with
  | ⟨0, _⟩ => show win0_2.index _ (0 : Fin 2) * 2000 ≤ (i 0).val ∧ (i 0).val < win0_2.index _ (0 : Fin 2) * 2000 + 2000; rw [e4]; show (i 0).val / 2000 * 2000 ≤ (i 0).val ∧ (i 0).val < (i 0).val / 2000 * 2000 + 2000; omega
  | ⟨1, _⟩ => show win0_2.index _ (1 : Fin 2) * 128 ≤ (i 1).val ∧ (i 1).val < win0_2.index _ (1 : Fin 2) * 128 + 128; rw [e5]; omega

/-- The output array after the region: the whole product of the two input arrays as the region finds them. -/
theorem final (c : Dev nD) : (dat0 V c).arrAt 2 cfg0.N = product (V c main_arg0) (V c main_arg2) :=
  (dat0 V c).arrAt_eq_of_cover 2 (product (V c main_arg0) (V c main_arg2)) (fun t _ => flushed_eq V c t) cover

end Cert.KernelIdeal.MatMul0

end
-- ==== Proof.MatMul2.lean ====
/-
  Region 2 of the idealized kernel: a [100000, 128] array times a [128, 128] matrix, 2000 rows at a time.  At the ideal
  values the rounding of both operands to bf16 is the identity and the product into a zero accumulator is the plain sum over
  the inner index, so every row tile is the restriction of the one whole product, and the 50 tiles cover the rows.
-/
import proofs.«131590_j68728066670865_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MatMul2

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem origin : (![0, 0] : Fin 2 → Nat) = fun _ => 0 := funext fun a => by fin_cases a <;> rfl

/-- Entry (r, k) of the left operand and entry (k, j) of the right one, for the output entry `i` = (r, j). -/
abbrev lrow (i : S100000x128.Idx) (k : Fin 128) : S100000x128.Idx := fun a => match a with
  | ⟨0, _⟩ => ⟨(i 0).val, (i 0).isLt⟩
  | ⟨1, _⟩ => ⟨k.val, k.isLt⟩
abbrev rcol (i : S100000x128.Idx) (k : Fin 128) : S128x128.Idx := fun a => match a with
  | ⟨0, _⟩ => ⟨k.val, k.isLt⟩
  | ⟨1, _⟩ => ⟨(i 1).val, (i 1).isLt⟩

/-- The whole product, entry by entry: the sum over the inner index. -/
def product (x : FVec Ideal S100000x128 .f32) (w : FVec Ideal S128x128 .f32) : FVec Ideal S100000x128 .f32 :=
  fun i => ∑ k : Fin 128, x (lrow i k) * w (rcol i k)

/-- The same two entries inside a tile of 2000 rows. -/
abbrev trow (j : S2000x128.Idx) (k : Fin 128) : S2000x128.Idx := fun a => match a with
  | ⟨0, _⟩ => ⟨(j 0).val, (j 0).isLt⟩
  | ⟨1, _⟩ => ⟨k.val, k.isLt⟩
abbrev tcol (j : S2000x128.Idx) (k : Fin 128) : S128x128.Idx := fun a => match a with
  | ⟨0, _⟩ => ⟨k.val, k.isLt⟩
  | ⟨1, _⟩ => ⟨(j 1).val, (j 1).isLt⟩

theorem lhs_0 (j : S2000x128.Idx) (q : dot_S2000x128_S128x128_S2000x128_1_0_0_1_n_n.contr.Idx) : (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (j : S2000x128.Idx) (q : dot_S2000x128_S128x128_S2000x128_1_0_0_1_n_n.contr.Idx) : (dot_S2000x128_S128x128_S2000x128_1_0_0_1_n_n.lhsIdx j q 1).val = (q ⟨0, by decide⟩).val :=
  dot_S2000x128_S128x128_S2000x128_1_0_0_1_n_n.lhsIdx_val_of_single rfl j q
theorem rhs_0 (j : S2000x128.Idx) (q : dot_S2000x128_S128x128_S2000x128_1_0_0_1_n_n.contr.Idx) : (dot_S2000x128_S128x128_S2000x128_1_0_0_1_n_n.rhsIdx j q 0).val = (q ⟨0, by decide⟩).val :=
  dot_S2000x128_S128x128_S2000x128_1_0_0_1_n_n.rhsIdx_val_of_single rfl j q
theorem rhs_1 (j : S2000x128.Idx) (q : dot_S2000x128_S128x128_S2000x128_1_0_0_1_n_n.contr.Idx) : (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The tile's arithmetic at an entry of the tile: the sum over the inner index of the products. -/
theorem tile_apply (x0 : Vec Ideal S2000x128 .f32) (x1 : Vec Ideal S128x128 .f32) (j : S2000x128.Idx) :
    k2_pay1 x0 x1 j = ∑ k : Fin 128, x0 (trow j k) * x1 (tcol j k) := by
  unfold k2_pay1
  simp only [matmul]
  rw [shapeCast_self]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = trow j k := funext fun a => Fin.ext (by
    match a with
    | ⟨0, _⟩ => exact lhs_0 _ _
    | ⟨1, _⟩ => exact (lhs_1 _ _).trans hk)
  have er : dot_S2000x128_S128x128_S2000x128_1_0_0_1_n_n.rhsIdx j ((ValueIdx.contrEquiv1 dot_S2000x128_S128x128_S2000x128_1_0_0_1_n_n 128 rfl rfl).symm k) = tcol j k := funext fun a => Fin.ext (by
    match a with
    | ⟨0, _⟩ => exact (rhs_0 _ _).trans hk
    | ⟨1, _⟩ => exact rhs_1 _ _)
  rw [el, er]
  rfl

/-- Where each window's tile sits: the tall windows at row tile `t`, the matrix window at its only block. -/
theorem tile_positions : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What tile `t` writes back is tile `t` of the whole product of the two arrays as the region finds them. -/
theorem flushed_eq (c : Dev nD) (t : Fin cfg2.N) :
    (dat2 V c).flushed 2 t = ((cfg2.win 2).blk t).view.read (Elt Ideal) (product (V c main_v47) (V c main_arg4)) := by
  show (cfg2.win 2).cut (grid2.coords t) ((dat2 V c).after 2 t) = _
  rw [after2_2]
  unfold out2_2
  rw [View.canon_unit_zero origin]
  simp only [View.ld_unit_zero (S := S2000x128) origin, View.ld_unit_zero (S := S128x128) origin]
  obtain ⟨e0, e1, e2, e3, e4, e5⟩ := tile_positions t
  funext j
  refine (tile_apply (iblk2 V c 0 t) (iblk2 V c 1 t) j).trans ?_
  show ∑ k : Fin 128, FloatOps.mulf (F := Ideal) (φ := .f32) (V c main_v47 (((cfg2.win 0).blk t).view.emb (trow j k))) (V c main_arg4 (((cfg2.win 1).blk t).view.emb (tcol j k)))
    = ∑ k : Fin 128, FloatOps.mulf (F := Ideal) (φ := .f32) (V c main_v47 (lrow (((cfg2.win 2).blk t).view.emb j) k)) (V c main_arg4 (rcol (((cfg2.win 2).blk t).view.emb j) k))
  refine Finset.sum_congr rfl fun k _ => ?_
  have h0 : ((cfg2.win 0).blk t).view.emb (trow j k) = lrow (((cfg2.win 2).blk t).view.emb j) k := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  have h1 : ((cfg2.win 1).blk t).view.emb (tcol j k) = rcol (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [h0, h1]

/-- An index of the array is in tile `t` iff each coordinate is in the tile's range on its axis. -/
theorem mem_blk (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v48).slice (win2_2.rect t)).set ↔ _
  rw [View.set_slice_whole, Rect.mem_set_unit]
  exact Iff.rfl

/-- Row `r` lies in row tile `r / 2000`. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 50 := N_2
  refine ⟨⟨(i 0).val / 2000, by rw [hN]; omega⟩, flush2_2 _, ?_⟩
  rw [mem_blk]
  obtain ⟨e0, e1, e2, e3, e4, e5⟩ := tile_positions ⟨(i 0).val / 2000, by rw [hN]; omega⟩
  intro a
  match a with
  | ⟨0, _⟩ => show win2_2.index _ (0 : Fin 2) * 2000 ≤ (i 0).val ∧ (i 0).val < win2_2.index _ (0 : Fin 2) * 2000 + 2000; rw [e4]; show (i 0).val / 2000 * 2000 ≤ (i 0).val ∧ (i 0).val < (i 0).val / 2000 * 2000 + 2000; omega
  | ⟨1, _⟩ => show win2_2.index _ (1 : Fin 2) * 128 ≤ (i 1).val ∧ (i 1).val < win2_2.index _ (1 : Fin 2) * 128 + 128; rw [e5]; omega

/-- The output array after the region: the whole product of the two input arrays as the region finds them. -/
theorem final (c : Dev nD) : (dat2 V c).arrAt 2 cfg2.N = product (V c main_v47) (V c main_arg4) :=
  (dat2 V c).arrAt_eq_of_cover 2 (product (V c main_v47) (V c main_arg4)) (fun t _ => flushed_eq V c t) cover

end Cert.KernelIdeal.MatMul2

end
-- ==== Proof.MatMul4.lean ====
/-
  Region 4 of the idealized kernel: a [100000, 128] array times a [128, 40] matrix, 2000 rows at a time.  At the ideal
  values the rounding of both operands to bf16 is the identity and the product into a zero accumulator is the plain sum over
  the inner index, so every row tile is the restriction of the one whole product, and the 50 tiles cover the rows.
-/
import proofs.«131590_j68728066670865_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MatMul4

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem origin : (![0, 0] : Fin 2 → Nat) = fun _ => 0 := funext fun a => by fin_cases a <;> rfl

/-- Entry (r, k) of the left operand and entry (k, j) of the right one, for the output entry `i` = (r, j). -/
abbrev lrow (i : S100000x40.Idx) (k : Fin 128) : S100000x128.Idx := fun a => match a with
  | ⟨0, _⟩ => ⟨(i 0).val, (i 0).isLt⟩
  | ⟨1, _⟩ => ⟨k.val, k.isLt⟩
abbrev rcol (i : S100000x40.Idx) (k : Fin 128) : S128x40.Idx := fun a => match a with
  | ⟨0, _⟩ => ⟨k.val, k.isLt⟩
  | ⟨1, _⟩ => ⟨(i 1).val, (i 1).isLt⟩

/-- The whole product, entry by entry: the sum over the inner index. -/
def product (x : FVec Ideal S100000x128 .f32) (w : FVec Ideal S128x40 .f32) : FVec Ideal S100000x40 .f32 :=
  fun i => ∑ k : Fin 128, x (lrow i k) * w (rcol i k)

/-- The same two entries inside a tile of 2000 rows. -/
abbrev trow (j : S2000x40.Idx) (k : Fin 128) : S2000x128.Idx := fun a => match a with
  | ⟨0, _⟩ => ⟨(j 0).val, (j 0).isLt⟩
  | ⟨1, _⟩ => ⟨k.val, k.isLt⟩
abbrev tcol (j : S2000x40.Idx) (k : Fin 128) : S128x40.Idx := fun a => match a with
  | ⟨0, _⟩ => ⟨k.val, k.isLt⟩
  | ⟨1, _⟩ => ⟨(j 1).val, (j 1).isLt⟩

theorem lhs_0 (j : S2000x40.Idx) (q : dot_S2000x128_S128x40_S2000x40_1_0_0_1_n_n.contr.Idx) : (dot_S2000x128_S128x40_S2000x40_1_0_0_1_n_n.lhsIdx j q 0).val = (j 0).val := by
  unfold DotDims.lhsIdx
  rw [dif_neg (show ¬(0 : Fin S2000x128.rank) ∈ dot_S2000x128_S128x40_S2000x40_1_0_0_1_n_n.lhsBatch by decide), dif_pos (show (0 : Fin S2000x128.rank) ∈ dot_S2000x128_S128x40_S2000x40_1_0_0_1_n_n.lhsNonContracting by decide)]
  rfl
theorem lhs_1 (j : S2000x40.Idx) (q : dot_S2000x128_S128x40_S2000x40_1_0_0_1_n_n.contr.Idx) : (dot_S2000x128_S128x40_S2000x40_1_0_0_1_n_n.lhsIdx j q 1).val = (q ⟨0, by decide⟩).val :=
  dot_S2000x128_S128x40_S2000x40_1_0_0_1_n_n.lhsIdx_val_of_single rfl j q
theorem rhs_0 (j : S2000x40.Idx) (q : dot_S2000x128_S128x40_S2000x40_1_0_0_1_n_n.contr.Idx) : (dot_S2000x128_S128x40_S2000x40_1_0_0_1_n_n.rhsIdx j q 0).val = (q ⟨0, by decide⟩).val :=
  dot_S2000x128_S128x40_S2000x40_1_0_0_1_n_n.rhsIdx_val_of_single rfl j q
theorem rhs_1 (j : S2000x40.Idx) (q : dot_S2000x128_S128x40_S2000x40_1_0_0_1_n_n.contr.Idx) : (dot_S2000x128_S128x40_S2000x40_1_0_0_1_n_n.rhsIdx j q 1).val = (j 1).val := by
  unfold DotDims.rhsIdx
  rw [dif_neg (show ¬(1 : Fin S128x40.rank) ∈ dot_S2000x128_S128x40_S2000x40_1_0_0_1_n_n.rhsBatch by decide), dif_pos (show (1 : Fin S128x40.rank) ∈ dot_S2000x128_S128x40_S2000x40_1_0_0_1_n_n.rhsNonContracting by decide)]
  rfl

/-- The tile's arithmetic at an entry of the tile: the sum over the inner index of the products. -/
theorem tile_apply (x0 : Vec Ideal S2000x128 .f32) (x1 : Vec Ideal S128x40 .f32) (j : S2000x40.Idx) :
    k4_pay1 x0 x1 j = ∑ k : Fin 128, x0 (trow j k) * x1 (tcol j k) := by
  unfold k4_pay1
  simp only [matmul]
  rw [shapeCast_self]
  rw [Ideal.matmul_constant_zero_apply, ← Equiv.sum_comp (ValueIdx.contrEquiv1 dot_S2000x128_S128x40_S2000x40_1_0_0_1_n_n 128 rfl rfl).symm]
  refine Finset.sum_congr rfl fun k _ => ?_
  have hk := ValueIdx.contrEquiv1_symm_val dot_S2000x128_S128x40_S2000x40_1_0_0_1_n_n 128 rfl rfl k
  have el : dot_S2000x128_S128x40_S2000x40_1_0_0_1_n_n.lhsIdx j ((ValueIdx.contrEquiv1 dot_S2000x128_S128x40_S2000x40_1_0_0_1_n_n 128 rfl rfl).symm k) = trow j k := funext fun a => Fin.ext (by
    match a with
    | ⟨0, _⟩ => exact lhs_0 _ _
    | ⟨1, _⟩ => exact (lhs_1 _ _).trans hk)
  have er : dot_S2000x128_S128x40_S2000x40_1_0_0_1_n_n.rhsIdx j ((ValueIdx.contrEquiv1 dot_S2000x128_S128x40_S2000x40_1_0_0_1_n_n 128 rfl rfl).symm k) = tcol j k := funext fun a => Fin.ext (by
    match a with
    | ⟨0, _⟩ => exact (rhs_0 _ _).trans hk
    | ⟨1, _⟩ => exact rhs_1 _ _)
  rw [el, er]
  rfl

/-- Where each window's tile sits: the tall windows at row tile `t`, the matrix window at its only block. -/
theorem tile_positions : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What tile `t` writes back is tile `t` of the whole product of the two arrays as the region finds them. -/
theorem flushed_eq (c : Dev nD) (t : Fin cfg4.N) :
    (dat4 V c).flushed 2 t = ((cfg4.win 2).blk t).view.read (Elt Ideal) (product (V c main_v62) (V c main_arg6)) := by
  show (cfg4.win 2).cut (grid4.coords t) ((dat4 V c).after 2 t) = _
  rw [after4_2]
  unfold out4_2
  rw [View.canon_unit_zero origin]
  simp only [View.ld_unit_zero (S := S2000x128) origin, View.ld_unit_zero (S := S128x40) origin]
  obtain ⟨e0, e1, e2, e3, e4, e5⟩ := tile_positions t
  funext j
  refine (tile_apply (iblk4 V c 0 t) (iblk4 V c 1 t) j).trans ?_
  show ∑ k : Fin 128, FloatOps.mulf (F := Ideal) (φ := .f32) (V c main_v62 (((cfg4.win 0).blk t).view.emb (trow j k))) (V c main_arg6 (((cfg4.win 1).blk t).view.emb (tcol j k)))
    = ∑ k : Fin 128, FloatOps.mulf (F := Ideal) (φ := .f32) (V c main_v62 (lrow (((cfg4.win 2).blk t).view.emb j) k)) (V c main_arg6 (rcol (((cfg4.win 2).blk t).view.emb j) k))
  refine Finset.sum_congr rfl fun k _ => ?_
  have h0 : ((cfg4.win 0).blk t).view.emb (trow j k) = lrow (((cfg4.win 2).blk t).view.emb j) k := by
    funext a; apply Fin.ext
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 128 + 1 * k.val = k.val; omega
  have h1 : ((cfg4.win 1).blk t).view.emb (tcol j k) = rcol (((cfg4.win 2).blk t).view.emb j) k := by
    funext a; apply Fin.ext
    match a with
    | ⟨0, _⟩ => show win4_1.index t (0 : Fin 2) * 128 + 1 * k.val = k.val; omega
    | ⟨1, _⟩ => show win4_1.index t (1 : Fin 2) * 40 + 1 * (j 1).val = win4_2.index t (1 : Fin 2) * 40 + 1 * (j 1).val; omega
  rw [h0, h1]

/-- An index of the array is in tile `t` iff each coordinate is in the tile's range on its axis. -/
theorem mem_blk (t : Fin cfg4.N) (i : S100000x40.Idx) :
    i ∈ ((cfg4.win 2).blk t).view.set ↔ ∀ a : Fin 2, win4_2.index t a * S2000x40.size a ≤ (i a).val ∧ (i a).val < win4_2.index t a * S2000x40.size a + S2000x40.size a := by
  show i ∈ ((View.whole main_v63).slice (win4_2.rect t)).set ↔ _
  rw [View.set_slice_whole, Rect.mem_set_unit]
  exact Iff.rfl

/-- Row `r` lies in row tile `r / 2000`. -/
theorem cover (i : S100000x40.Idx) : ∃ t : Fin cfg4.N, (cfg4.win 2).flush t = true ∧ i ∈ ((cfg4.win 2).blk t).view.set := by
  have hi0 : (i 0).val < 100000 := (i 0).isLt
  have hi1 : (i 1).val < 40 := (i 1).isLt
  have hN : cfg4.N = 50 := N_4
  refine ⟨⟨(i 0).val / 2000, by rw [hN]; omega⟩, flush4_2 _, ?_⟩
  rw [mem_blk]
  obtain ⟨e0, e1, e2, e3, e4, e5⟩ := tile_positions ⟨(i 0).val / 2000, by rw [hN]; omega⟩
  intro a
  match a with
  | ⟨0, _⟩ => show win4_2.index _ (0 : Fin 2) * 2000 ≤ (i 0).val ∧ (i 0).val < win4_2.index _ (0 : Fin 2) * 2000 + 2000; rw [e4]; show (i 0).val / 2000 * 2000 ≤ (i 0).val ∧ (i 0).val < (i 0).val / 2000 * 2000 + 2000; omega
  | ⟨1, _⟩ => show win4_2.index _ (1 : Fin 2) * 40 ≤ (i 1).val ∧ (i 1).val < win4_2.index _ (1 : Fin 2) * 40 + 40; rw [e5]; omega

/-- The output array after the region: the whole product of the two input arrays as the region finds them. -/
theorem final (c : Dev nD) : (dat4 V c).arrAt 2 cfg4.N = product (V c main_v62) (V c main_arg6) :=
  (dat4 V c).arrAt_eq_of_cover 2 (product (V c main_v62) (V c main_arg6)) (fun t _ => flushed_eq V c t) cover

end Cert.KernelIdeal.MatMul4

end
-- ==== Proof.BiasRelu1.lean ====
/-
  Region 1 of the idealized kernel: over 50 row tiles of 2000 rows, a tile of the [100000, 128] array plus the one
  [1, 128] bias row, clamped below at zero.  Whatever the region finds in its two input arrays, its output array ends
  holding, at (r, j), max (a (r, j) + b (0, j)) 0: every tile is the restriction of that one function, and the 50 tiles
  cover the rows.
-/
import proofs.«131590_j68728066670865_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BiasRelu1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem origin : (![0, 0] : Fin 2 → Nat) = fun _ => 0 := funext fun a => by fin_cases a <;> rfl

/-- The array the region leaves: the bias row added to every row, negative entries replaced by zero. -/
def biasRelu (a : FVec Ideal S100000x128 .f32) (b : FVec Ideal S1x128 .f32) : FVec Ideal S100000x128 .f32 :=
  fun i => max (a i + b (ix2 (n0 := 1) (n1 := 128) 0 ⟨(i 1).val, (i 1).isLt⟩)) 0

/-- The tile's arithmetic at an entry of the tile. -/
theorem tile_apply (x0 : Vec Ideal S2000x128 .f32) (x1 : Vec Ideal S1x128 .f32) (p : Fin 2000) (q : Fin 128) :
    k1_pay1 x0 x1 (ix2 p q) = max (x0 (ix2 p q) + x1 (ix2 (0 : Fin 1) q)) 0 := by
  unfold k1_pay1
  rw [maximumf_apply, addf_apply, shapeCast_self, shapeCast_self, broadcastTo_1b_ab_apply, broadcast_apply]
  show max _ (Ideal.ofBits .f32 0x00000000#32) = _
  rw [Ideal.ofBits_zero_f32]

/-- Where each window's tile sits: the tall windows at row tile `t`, the bias window at its only block. -/
theorem tile_positions : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What tile `t` writes back is tile `t` of `biasRelu` of the two arrays as the region finds them. -/
theorem flushed_eq (c : Dev nD) (t : Fin cfg1.N) :
    (dat1 V c).flushed 2 t = ((cfg1.win 2).blk t).view.read (Elt Ideal) (biasRelu (V c main_v45) (V c main_v46)) := by
  show (cfg1.win 2).cut (grid1.coords t) ((dat1 V c).after 2 t) = _
  rw [after1_2]
  unfold out1_2
  rw [View.canon_unit_zero origin]
  simp only [View.ld_unit_zero (S := S2000x128) origin, View.ld_unit_zero (S := S1x128) origin]
  obtain ⟨e0, e1, e2, e3, e4, e5⟩ := tile_positions t
  funext j
  obtain ⟨p, q, rfl⟩ : ∃ (p : Fin 2000) (q : Fin 128), j = ix2 p q := ⟨j 0, j 1, eq_ix2 j⟩
  refine (tile_apply (iblk1 V c 0 t) (iblk1 V c 1 t) p q).trans ?_
  show FloatOps.maximumf (F := Ideal) (φ := .f32) (FloatOps.addf (F := Ideal) (φ := .f32) (V c main_v45 (((cfg1.win 0).blk t).view.emb (ix2 p q))) (V c main_v46 (((cfg1.win 1).blk t).view.emb (ix2 (0 : Fin 1) q)))) 0
    = FloatOps.maximumf (F := Ideal) (φ := .f32) (FloatOps.addf (F := Ideal) (φ := .f32) (V c main_v45 (((cfg1.win 2).blk t).view.emb (ix2 p q))) (V c main_v46 (ix2 (n0 := 1) (n1 := 128) 0 ⟨((((cfg1.win 2).blk t).view.emb (ix2 p q)) 1).val, _⟩))) 0
  have h0 : ((cfg1.win 0).blk t).view.emb (ix2 p q) = ((cfg1.win 2).blk t).view.emb (ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q)
      = ix2 (n0 := 1) (n1 := 128) 0 ⟨((((cfg1.win 2).blk t).view.emb (ix2 p q)) 1).val, ((((cfg1.win 2).blk t).view.emb (ix2 p q)) 1).isLt⟩ := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [h0, h1]

/-- An index of the array is in tile `t` iff each coordinate is in the tile's range on its axis. -/
theorem mem_blk (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v47).slice (win1_2.rect t)).set ↔ _
  rw [View.set_slice_whole, Rect.mem_set_unit]
  exact Iff.rfl

/-- Row `r` lies in row tile `r / 2000`. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 50 := N_1
  refine ⟨⟨(i 0).val / 2000, by rw [hN]; omega⟩, flush1_2 _, ?_⟩
  rw [mem_blk]
  obtain ⟨e0, e1, e2, e3, e4, e5⟩ := tile_positions ⟨(i 0).val / 2000, by rw [hN]; omega⟩
  intro a
  match a with
  | ⟨0, _⟩ => show win1_2.index _ (0 : Fin 2) * 2000 ≤ (i 0).val ∧ (i 0).val < win1_2.index _ (0 : Fin 2) * 2000 + 2000; rw [e4]; show (i 0).val / 2000 * 2000 ≤ (i 0).val ∧ (i 0).val < (i 0).val / 2000 * 2000 + 2000; omega
  | ⟨1, _⟩ => show win1_2.index _ (1 : Fin 2) * 128 ≤ (i 1).val ∧ (i 1).val < win1_2.index _ (1 : Fin 2) * 128 + 128; rw [e5]; omega

/-- The output array after the region: `biasRelu` of the two input arrays as the region finds them. -/
theorem final (c : Dev nD) : (dat1 V c).arrAt 2 cfg1.N = biasRelu (V c main_v45) (V c main_v46) :=
  (dat1 V c).arrAt_eq_of_cover 2 (biasRelu (V c main_v45) (V c main_v46)) (fun t _ => flushed_eq V c t) cover

end Cert.KernelIdeal.BiasRelu1

end
-- ==== Proof.BiasRelu3.lean ====
/-
  Region 3 of the idealized kernel: over 50 row tiles of 2000 rows, a tile of the [100000, 128] array plus the one
  [1, 128] bias row, clamped below at zero.  Whatever the region finds in its two input arrays, its output array ends
  holding, at (r, j), max (a (r, j) + b (0, j)) 0: every tile is the restriction of that one function, and the 50 tiles
  cover the rows.
-/
import proofs.«131590_j68728066670865_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BiasRelu3

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem origin : (![0, 0] : Fin 2 → Nat) = fun _ => 0 := funext fun a => by fin_cases a <;> rfl

/-- The array the region leaves: the bias row added to every row, negative entries replaced by zero. -/
def biasRelu (a : FVec Ideal S100000x128 .f32) (b : FVec Ideal S1x128 .f32) : FVec Ideal S100000x128 .f32 :=
  fun i => max (a i + b (ix2 (n0 := 1) (n1 := 128) 0 ⟨(i 1).val, (i 1).isLt⟩)) 0

/-- The tile's arithmetic at an entry of the tile. -/
theorem tile_apply (x0 : Vec Ideal S2000x128 .f32) (x1 : Vec Ideal S1x128 .f32) (p : Fin 2000) (q : Fin 128) :
    k3_pay1 x0 x1 (ix2 p q) = max (x0 (ix2 p q) + x1 (ix2 (0 : Fin 1) q)) 0 := by
  unfold k3_pay1
  rw [maximumf_apply, addf_apply, shapeCast_self, shapeCast_self, broadcastTo_1b_ab_apply, broadcast_apply]
  show max _ (Ideal.ofBits .f32 0x00000000#32) = _
  rw [Ideal.ofBits_zero_f32]

/-- Where each window's tile sits: the tall windows at row tile `t`, the bias window at its only block. -/
theorem tile_positions : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What tile `t` writes back is tile `t` of `biasRelu` of the two arrays as the region finds them. -/
theorem flushed_eq (c : Dev nD) (t : Fin cfg3.N) :
    (dat3 V c).flushed 2 t = ((cfg3.win 2).blk t).view.read (Elt Ideal) (biasRelu (V c main_v60) (V c main_v61)) := by
  show (cfg3.win 2).cut (grid3.coords t) ((dat3 V c).after 2 t) = _
  rw [after3_2]
  unfold out3_2
  rw [View.canon_unit_zero origin]
  simp only [View.ld_unit_zero (S := S2000x128) origin, View.ld_unit_zero (S := S1x128) origin]
  obtain ⟨e0, e1, e2, e3, e4, e5⟩ := tile_positions t
  funext j
  obtain ⟨p, q, rfl⟩ : ∃ (p : Fin 2000) (q : Fin 128), j = ix2 p q := ⟨j 0, j 1, eq_ix2 j⟩
  refine (tile_apply (iblk3 V c 0 t) (iblk3 V c 1 t) p q).trans ?_
  show FloatOps.maximumf (F := Ideal) (φ := .f32) (FloatOps.addf (F := Ideal) (φ := .f32) (V c main_v60 (((cfg3.win 0).blk t).view.emb (ix2 p q))) (V c main_v61 (((cfg3.win 1).blk t).view.emb (ix2 (0 : Fin 1) q)))) 0
    = FloatOps.maximumf (F := Ideal) (φ := .f32) (FloatOps.addf (F := Ideal) (φ := .f32) (V c main_v60 (((cfg3.win 2).blk t).view.emb (ix2 p q))) (V c main_v61 (ix2 (n0 := 1) (n1 := 128) 0 ⟨((((cfg3.win 2).blk t).view.emb (ix2 p q)) 1).val, _⟩))) 0
  have h0 : ((cfg3.win 0).blk t).view.emb (ix2 p q) = ((cfg3.win 2).blk t).view.emb (ix2 p q) := by
    funext a; apply Fin.ext
    match a with
    | ⟨0, _⟩ => show win3_0.index t (0 : Fin 2) * 2000 + 1 * p.val = win3_2.index t (0 : Fin 2) * 2000 + 1 * p.val; omega
    | ⟨1, _⟩ => show win3_0.index t (1 : Fin 2) * 128 + 1 * q.val = win3_2.index t (1 : Fin 2) * 128 + 1 * q.val; omega
  have h1 : ((cfg3.win 1).blk t).view.emb (ix2 (0 : Fin 1) q)
      = ix2 (n0 := 1) (n1 := 128) 0 ⟨((((cfg3.win 2).blk t).view.emb (ix2 p q)) 1).val, ((((cfg3.win 2).blk t).view.emb (ix2 p q)) 1).isLt⟩ := by
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  rw [h0, h1]

/-- An index of the array is in tile `t` iff each coordinate is in the tile's range on its axis. -/
theorem mem_blk (t : Fin cfg3.N) (i : S100000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v62).slice (win3_2.rect t)).set ↔ _
  rw [View.set_slice_whole, Rect.mem_set_unit]
  exact Iff.rfl

/-- Row `r` lies in row tile `r / 2000`. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 50 := N_3
  refine ⟨⟨(i 0).val / 2000, by rw [hN]; omega⟩, flush3_2 _, ?_⟩
  rw [mem_blk]
  obtain ⟨e0, e1, e2, e3, e4, e5⟩ := tile_positions ⟨(i 0).val / 2000, by rw [hN]; omega⟩
  intro a
  match a with
  | ⟨0, _⟩ => show win3_2.index _ (0 : Fin 2) * 2000 ≤ (i 0).val ∧ (i 0).val < win3_2.index _ (0 : Fin 2) * 2000 + 2000; rw [e4]; show (i 0).val / 2000 * 2000 ≤ (i 0).val ∧ (i 0).val < (i 0).val / 2000 * 2000 + 2000; omega
  | ⟨1, _⟩ => show win3_2.index _ (1 : Fin 2) * 128 ≤ (i 1).val ∧ (i 1).val < win3_2.index _ (1 : Fin 2) * 128 + 128; rw [e5]; omega

/-- The output array after the region: `biasRelu` of the two input arrays as the region finds them. -/
theorem final (c : Dev nD) : (dat3 V c).arrAt 2 cfg3.N = biasRelu (V c main_v60) (V c main_v61) :=
  (dat3 V c).arrAt_eq_of_cover 2 (biasRelu (V c main_v60) (V c main_v61)) (fun t _ => flushed_eq V c t) cover

end Cert.KernelIdeal.BiasRelu3

end
-- ==== Proof.BiasRelu5.lean ====
/-
  Region 5 of the idealized kernel: over 50 row tiles of 2000 rows, a tile of the [100000, 40] array plus the one
  [1, 40] bias row, clamped below at zero.  Whatever the region finds in its two input arrays, its output array ends
  holding, at (r, j), max (a (r, j) + b (0, j)) 0: every tile is the restriction of that one function, and the 50 tiles
  cover the rows.
-/
import proofs.«131590_j68728066670865_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BiasRelu5

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem origin : (![0, 0] : Fin 2 → Nat) = fun _ => 0 := funext fun a => by fin_cases a <;> rfl

/-- The array the region leaves: the bias row added to every row, negative entries replaced by zero. -/
def biasRelu (a : FVec Ideal S100000x40 .f32) (b : FVec Ideal S1x40 .f32) : FVec Ideal S100000x40 .f32 :=
  fun i => max (a i + b (ix2 (n0 := 1) (n1 := 40) 0 ⟨(i 1).val, (i 1).isLt⟩)) 0

/-- The tile's arithmetic at an entry of the tile. -/
theorem tile_apply (x0 : Vec Ideal S2000x40 .f32) (x1 : Vec Ideal S1x40 .f32) (p : Fin 2000) (q : Fin 40) :
    k5_pay1 x0 x1 (ix2 p q) = max (x0 (ix2 p q) + x1 (ix2 (0 : Fin 1) q)) 0 := by
  unfold k5_pay1
  rw [maximumf_apply, addf_apply, shapeCast_self, shapeCast_self, broadcastTo_1b_ab_apply, broadcast_apply]
  show max _ (Ideal.ofBits .f32 0x00000000#32) = _
  rw [Ideal.ofBits_zero_f32]

/-- Where each window's tile sits: the tall windows at row tile `t`, the bias window at its only block. -/
theorem tile_positions : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What tile `t` writes back is tile `t` of `biasRelu` of the two arrays as the region finds them. -/
theorem flushed_eq (c : Dev nD) (t : Fin cfg5.N) :
    (dat5 V c).flushed 2 t = ((cfg5.win 2).blk t).view.read (Elt Ideal) (biasRelu (V c main_v75) (V c main_v76)) := by
  show (cfg5.win 2).cut (grid5.coords t) ((dat5 V c).after 2 t) = _
  rw [after5_2]
  unfold out5_2
  rw [View.canon_unit_zero origin]
  simp only [View.ld_unit_zero (S := S2000x40) origin, View.ld_unit_zero (S := S1x40) origin]
  obtain ⟨e0, e1, e2, e3, e4, e5⟩ := tile_positions t
  funext j
  obtain ⟨p, q, rfl⟩ : ∃ (p : Fin 2000) (q : Fin 40), j = ix2 p q := ⟨j 0, j 1, eq_ix2 j⟩
  refine (tile_apply (iblk5 V c 0 t) (iblk5 V c 1 t) p q).trans ?_
  show FloatOps.maximumf (F := Ideal) (φ := .f32) (FloatOps.addf (F := Ideal) (φ := .f32) (V c main_v75 (((cfg5.win 0).blk t).view.emb (ix2 p q))) (V c main_v76 (((cfg5.win 1).blk t).view.emb (ix2 (0 : Fin 1) q)))) 0
    = FloatOps.maximumf (F := Ideal) (φ := .f32) (FloatOps.addf (F := Ideal) (φ := .f32) (V c main_v75 (((cfg5.win 2).blk t).view.emb (ix2 p q))) (V c main_v76 (ix2 (n0 := 1) (n1 := 40) 0 ⟨((((cfg5.win 2).blk t).view.emb (ix2 p q)) 1).val, _⟩))) 0
  have h0 : ((cfg5.win 0).blk t).view.emb (ix2 p q) = ((cfg5.win 2).blk t).view.emb (ix2 p q) := by
    funext a; apply Fin.ext
    match a with
    | ⟨0, _⟩ => show win5_0.index t (0 : Fin 2) * 2000 + 1 * p.val = win5_2.index t (0 : Fin 2) * 2000 + 1 * p.val; omega
    | ⟨1, _⟩ => show win5_0.index t (1 : Fin 2) * 40 + 1 * q.val = win5_2.index t (1 : Fin 2) * 40 + 1 * q.val; omega
  have h1 : ((cfg5.win 1).blk t).view.emb (ix2 (0 : Fin 1) q)
      = ix2 (n0 := 1) (n1 := 40) 0 ⟨((((cfg5.win 2).blk t).view.emb (ix2 p q)) 1).val, ((((cfg5.win 2).blk t).view.emb (ix2 p q)) 1).isLt⟩ := by
    funext a; apply Fin.ext
    match a with
    | ⟨0, _⟩ => show win5_1.index t (0 : Fin 2) * 1 + 1 * 0 = 0; omega
    | ⟨1, _⟩ => show win5_1.index t (1 : Fin 2) * 40 + 1 * q.val = win5_2.index t (1 : Fin 2) * 40 + 1 * q.val; omega
  rw [h0, h1]

/-- An index of the array is in tile `t` iff each coordinate is in the tile's range on its axis. -/
theorem mem_blk (t : Fin cfg5.N) (i : S100000x40.Idx) :
    i ∈ ((cfg5.win 2).blk t).view.set ↔ ∀ a : Fin 2, win5_2.index t a * S2000x40.size a ≤ (i a).val ∧ (i a).val < win5_2.index t a * S2000x40.size a + S2000x40.size a := by
  show i ∈ ((View.whole main_v77).slice (win5_2.rect t)).set ↔ _
  rw [View.set_slice_whole, Rect.mem_set_unit]
  exact Iff.rfl

/-- Row `r` lies in row tile `r / 2000`. -/
theorem cover (i : S100000x40.Idx) : ∃ t : Fin cfg5.N, (cfg5.win 2).flush t = true ∧ i ∈ ((cfg5.win 2).blk t).view.set := by
  have hi0 : (i 0).val < 100000 := (i 0).isLt
  have hi1 : (i 1).val < 40 := (i 1).isLt
  have hN : cfg5.N = 50 := N_5
  refine ⟨⟨(i 0).val / 2000, by rw [hN]; omega⟩, flush5_2 _, ?_⟩
  rw [mem_blk]
  obtain ⟨e0, e1, e2, e3, e4, e5⟩ := tile_positions ⟨(i 0).val / 2000, by rw [hN]; omega⟩
  intro a
  match a with
  | ⟨0, _⟩ => show win5_2.index _ (0 : Fin 2) * 2000 ≤ (i 0).val ∧ (i 0).val < win5_2.index _ (0 : Fin 2) * 2000 + 2000; rw [e4]; show (i 0).val / 2000 * 2000 ≤ (i 0).val ∧ (i 0).val < (i 0).val / 2000 * 2000 + 2000; omega
  | ⟨1, _⟩ => show win5_2.index _ (1 : Fin 2) * 40 ≤ (i 1).val ∧ (i 1).val < win5_2.index _ (1 : Fin 2) * 40 + 40; rw [e5]; omega

/-- The output array after the region: `biasRelu` of the two input arrays as the region finds them. -/
theorem final (c : Dev nD) : (dat5 V c).arrAt 2 cfg5.N = biasRelu (V c main_v75) (V c main_v76) :=
  (dat5 V c).arrAt_eq_of_cover 2 (biasRelu (V c main_v75) (V c main_v76)) (fun t _ => flushed_eq V c t) cover

end Cert.KernelIdeal.BiasRelu5

end
-- ==== Proof.LibKeepdims.lean ====
/-
  Two layout facts about a column kept after a row reduction (a sum or a maximum taken along the last axis with the axis
  kept as a unit axis): the vector of row results cast to a column, and that column broadcast back over the row.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LogSoftmax6.lean ====
/-
  Region 6 of the idealized kernel: the row-wise log-softmax of a [100000, 40] array, 2000 rows at a time.  A row's entry
  minus the row's maximum, minus the logarithm of the sum over the row of the exponentials of the entries so shifted.  Each
  output entry depends on its own row only, so every row tile is the restriction of the one whole-array function, and the
  50 tiles cover the rows.
-/
import proofs.«131590_j68728066670865_1_alg».proof.Proof.Gen.KernelIdeal.Frame
import proofs.«131590_j68728066670865_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LogSoftmax6

open Cert.KernelIdeal Cert.KernelIdeal.Gen Idealize.ShloMosaic Idealize.ShloMosaic.TcCoe Idealize.SL.Sem
open Idealize.ShloMosaic.Pipeline (Dat)
open Idealize.ShloMosaic.ValueIdx

open Cert.LibKeepdims

variable (V : (c : Dev nD) → (b : Ref sig .tc) → Buf (Elt Ideal) ((c : Thread nD τ).loc b))

theorem origin : (![0, 0] : Fin 2 → Nat) = fun _ => 0 := funext fun a => by fin_cases a <;> rfl

/-- The maximum of a row of 40 entries, taken from minus infinity. -/
def rowMax (x : Fin 40 → EReal) : EReal := (Finset.univ : Finset (Fin 40)).fold max (Ideal.ofBits .f32 0xFF800000#32) x

/-- Entry `k` of the row of `i`. -/
abbrev rowAt (i : S100000x40.Idx) (k : Fin 40) : S100000x40.Idx := fun a => match a with
  | ⟨0, _⟩ => ⟨(i 0).val, (i 0).isLt⟩
  | ⟨1, _⟩ => ⟨k.val, k.isLt⟩

/-- The row-wise log-softmax of the whole array. -/
def logSoftmax (x : FVec Ideal S100000x40 .f32) : FVec Ideal S100000x40 .f32 :=
  fun i => (x i - rowMax fun k => x (rowAt i k)) - Ideal.log (∑ k : Fin 40, Ideal.exp (x (rowAt i k) - rowMax fun k => x (rowAt i k)))

/-- The index `(p, k)` put back into row `p` of a tile is `(p, k)`. -/
theorem lift_eq (h : S2000x40.Reduces [1] S2000) (p : Fin 2000) (k : Fin 40) : h.lift (ix1 p) k = ix2 p k :=
  funext fun a => Fin.ext (by
    match a with
    | ⟨0, _⟩ => rfl
    | ⟨1, _⟩ => rfl)

/-- A tile's maximum along its rows, read at row `p`. -/
theorem rowMax_tile (x0 : FVec Ideal S2000x40 .f32) (h : S2000x40.Reduces [1] S2000) (hφ : FKind.Formats .f32)
    (hacc : (0xFF800000#32 : BitVec 32) = FKind.maximumf.neutral .f32 hφ) (p : Fin 2000) :
    multiReduction (F := Ideal) .maximumf [1] S2000 x0 0xFF800000#32 h hφ hacc (ix1 p) = rowMax fun k => x0 (ix2 p k) := by
  refine (Ideal.multiReduction_maximumf_single x0 0xFF800000#32 h hφ hacc (ix1 p)).trans ?_
  unfold rowMax
  refine congrArg (Finset.fold max (FloatOps.ofBits (F := Ideal) .f32 0xFF800000#32) · (Finset.univ : Finset (Fin 40))) ?_
  funext k
  exact congrArg x0 (lift_eq h p k)

/-- A tile's sum along its rows, read at row `p`. -/
theorem rowSum_tile (y : FVec Ideal S2000x40 .f32) (h : S2000x40.Reduces [1] S2000) (hφ : FKind.Formats .f32)
    (hacc : (0x00000000#32 : BitVec 32) = FKind.add.neutral .f32 hφ) (p : Fin 2000) :
    multiReduction (F := Ideal) .add [1] S2000 y 0x00000000#32 h hφ hacc (ix1 p) = ∑ k : Fin 40, y (ix2 p k) := by
  refine (Ideal.multiReduction_add_single y 0x00000000#32 h hφ hacc (ix1 p)).trans ?_
  refine Finset.sum_congr rfl fun k _ => ?_
  exact congrArg y (lift_eq h p k)

/-- The tile with every row's maximum subtracted. -/
def shifted (x0 : Vec Ideal S2000x40 .f32) : FVec Ideal S2000x40 .f32 :=
  subf x0 (broadcastTo S2000x40 (shapeCast S2000x1 (multiReduction .maximumf [1] S2000 x0 0xFF800000#32 reduces_S2000x40_S2000 (.inl rfl) rfl) shapeCasts_S2000_S2000x1) broadcasts_S2000x1_S2000x40)

theorem shifted_apply (x0 : Vec Ideal S2000x40 .f32) (p : Fin 2000) (q : Fin 40) :
    shifted x0 (ix2 p q) = x0 (ix2 p q) - rowMax fun k => x0 (ix2 p k) := by
  unfold shifted
  rw [subf_apply]
  refine congrArg (x0 (ix2 p q) - ·) ?_
  refine (broadcastTo_a1_ab_apply _ _ p q).trans ?_
  refine (shapeCast_a_a1_apply _ _ p 0).trans ?_
  exact rowMax_tile x0 _ _ _ p

/-- The tile's arithmetic is the shifted tile minus the logarithm of its rows' exponential sums. -/
theorem tile_eq (x0 : Vec Ideal S2000x40 .f32) :
    k6_pay1 x0 = subf (shifted x0) (broadcastTo S2000x40 (log (shapeCast S2000x1 (multiReduction .add [1] S2000 (exp (shifted x0)) 0x00000000#32 reduces_S2000x40_S2000 (.inl rfl) rfl) shapeCasts_S2000_S2000x1)) broadcasts_S2000x1_S2000x40) := by
  unfold k6_pay1 shifted
  simp only [shapeCast_self]

/-- The tile's arithmetic at an entry of the tile. -/
theorem tile_apply (x0 : Vec Ideal S2000x40 .f32) (p : Fin 2000) (q : Fin 40) :
    k6_pay1 x0 (ix2 p q) = (x0 (ix2 p q) - rowMax fun k => x0 (ix2 p k))
      - Ideal.log (∑ k : Fin 40, Ideal.exp (x0 (ix2 p k) - rowMax fun k => x0 (ix2 p k))) := by
  rw [tile_eq, subf_apply, shifted_apply]
  refine congrArg ((x0 (ix2 p q) - rowMax fun k => x0 (ix2 p k)) - ·) ?_
  refine (broadcastTo_a1_ab_apply _ _ p q).trans ?_
  show Ideal.log (shapeCast S2000x1 _ _ (ix2 p (0 : Fin 1))) = _
  refine congrArg Ideal.log ?_
  refine (shapeCast_a_a1_apply _ _ p 0).trans ?_
  refine (rowSum_tile (exp (shifted x0)) _ _ _ p).trans ?_
  refine Finset.sum_congr rfl fun k _ => ?_
  show Ideal.exp (shifted x0 (ix2 p k)) = _
  rw [shifted_apply]

/-- A tile entry computed from a tile whose row `p` is row `i` of the array is the array's log-softmax at `i`. -/
theorem tile_is_logSoftmax (X : Vec Ideal S2000x40 .f32) (A : FVec Ideal S100000x40 .f32) (p : Fin 2000) (q : Fin 40)
    (i : S100000x40.Idx) (hq : X (ix2 p q) = A i) (hrow : ∀ k : Fin 40, X (ix2 p k) = A (rowAt i k)) :
    (X (ix2 p q) - rowMax fun k => X (ix2 p k)) - Ideal.log (∑ k : Fin 40, Ideal.exp (X (ix2 p k) - rowMax fun k => X (ix2 p k)))
      = logSoftmax A i := by
  have hf : (fun k => X (ix2 p k)) = fun k => A (rowAt i k) := funext hrow
  unfold logSoftmax
  rw [hq, hf]
  simp only [hrow]

/-- Where each window's tile sits: both windows at row tile `t`. -/
theorem tile_positions : ∀ t : Fin cfg6.N, win6_0.index t (0 : Fin 2) = t.val ∧ win6_0.index t (1 : Fin 2) = 0
    ∧ win6_1.index t (0 : Fin 2) = t.val ∧ win6_1.index t (1 : Fin 2) = 0 :=
  (by decide +kernel : ∀ t : Fin grid6.N, _)

/-- What tile `t` writes back is tile `t` of the log-softmax of the array as the region finds it. -/
theorem flushed_eq (c : Dev nD) (t : Fin cfg6.N) :
    (dat6 V c).flushed 1 t = ((cfg6.win 1).blk t).view.read (Elt Ideal) (logSoftmax (V c main_v77)) := by
  show (cfg6.win 1).cut (grid6.coords t) ((dat6 V c).after 1 t) = _
  rw [after6_1]
  unfold out6_1
  rw [View.canon_unit_zero origin]
  simp only [View.ld_unit_zero (S := S2000x40) origin]
  obtain ⟨e0, e1, e2, e3⟩ := tile_positions t
  funext j
  obtain ⟨p, q, rfl⟩ : ∃ (p : Fin 2000) (q : Fin 40), j = ix2 p q := ⟨j 0, j 1, eq_ix2 j⟩
  refine (tile_apply (iblk6 V c 0 t) p q).trans ?_
  refine tile_is_logSoftmax (iblk6 V c 0 t) (V c main_v77) p q (((cfg6.win 1).blk t).view.emb (ix2 p q)) ?_ ?_
  · show V c main_v77 (((cfg6.win 0).blk t).view.emb (ix2 p q)) = V c main_v77 (((cfg6.win 1).blk t).view.emb (ix2 p q))
    refine congrArg (V c main_v77) ?_
    funext a; apply Fin.ext
    match a with
    | ⟨0, _⟩ => show win6_0.index t (0 : Fin 2) * 2000 + 1 * p.val = win6_1.index t (0 : Fin 2) * 2000 + 1 * p.val; omega
    | ⟨1, _⟩ => show win6_0.index t (1 : Fin 2) * 40 + 1 * q.val = win6_1.index t (1 : Fin 2) * 40 + 1 * q.val; omega
  · intro k
    show V c main_v77 (((cfg6.win 0).blk t).view.emb (ix2 p k)) = V c main_v77 (rowAt (((cfg6.win 1).blk t).view.emb (ix2 p q)) k)
    refine congrArg (V c main_v77) ?_
    funext a; apply Fin.ext
    match a with
    | ⟨0, _⟩ => show win6_0.index t (0 : Fin 2) * 2000 + 1 * p.val = win6_1.index t (0 : Fin 2) * 2000 + 1 * p.val; omega
    | ⟨1, _⟩ => show win6_0.index t (1 : Fin 2) * 40 + 1 * k.val = k.val; omega

/-- An index of the array is in tile `t` iff each coordinate is in the tile's range on its axis. -/
theorem mem_blk (t : Fin cfg6.N) (i : S100000x40.Idx) :
    i ∈ ((cfg6.win 1).blk t).view.set ↔ ∀ a : Fin 2, win6_1.index t a * S2000x40.size a ≤ (i a).val ∧ (i a).val < win6_1.index t a * S2000x40.size a + S2000x40.size a := by
  show i ∈ ((View.whole main_v78).slice (win6_1.rect t)).set ↔ _
  rw [View.set_slice_whole, Rect.mem_set_unit]
  exact Iff.rfl

/-- Row `r` lies in row tile `r / 2000`. -/
theorem cover (i : S100000x40.Idx) : ∃ t : Fin cfg6.N, (cfg6.win 1).flush t = true ∧ i ∈ ((cfg6.win 1).blk t).view.set := by
  have hi0 : (i 0).val < 100000 := (i 0).isLt
  have hi1 : (i 1).val < 40 := (i 1).isLt
  have hN : cfg6.N = 50 := N_6
  refine ⟨⟨(i 0).val / 2000, by rw [hN]; omega⟩, flush6_1 _, ?_⟩
  rw [mem_blk]
  obtain ⟨e0, e1, e2, e3⟩ := tile_positions ⟨(i 0).val / 2000, by rw [hN]; omega⟩
  intro a
  match a with
  | ⟨0, _⟩ => show win6_1.index _ (0 : Fin 2) * 2000 ≤ (i 0).val ∧ (i 0).val < win6_1.index _ (0 : Fin 2) * 2000 + 2000; rw [e2]; show (i 0).val / 2000 * 2000 ≤ (i 0).val ∧ (i 0).val < (i 0).val / 2000 * 2000 + 2000; omega
  | ⟨1, _⟩ => show win6_1.index _ (1 : Fin 2) * 40 ≤ (i 1).val ∧ (i 1).val < win6_1.index _ (1 : Fin 2) * 40 + 40; rw [e3]; omega

/-- The output array after the region: the log-softmax of the input array as the region finds it. -/
theorem final (c : Dev nD) : (dat6 V c).arrAt 1 cfg6.N = logSoftmax (V c main_v77) :=
  (dat6 V c).arrAt_eq_of_cover 1 (logSoftmax (V c main_v77)) (fun t _ => flushed_eq V c t) cover

end Cert.KernelIdeal.LogSoftmax6

end
-- ==== Proof.Bridge.lean ====
/-
  The three kinds of step the two programs carry out differently, each shown to be one function of its inputs at the ideal
  values: a matrix product (row-tiled into a zero accumulator against one `dot_general`), a bias added and clamped at zero
  (a reshaped bias row against a twice-broadcast bias), and the row-wise log-softmax (lane reductions of a tile against the
  host's reductions of the whole array; the reference's extra maximum with minus infinity changes nothing).
-/
import proofs.«131590_j68728066670865_1_alg».proof.Proof.RefRead
import proofs.«131590_j68728066670865_1_alg».proof.Proof.MatMul0
import proofs.«131590_j68728066670865_1_alg».proof.Proof.MatMul2
import proofs.«131590_j68728066670865_1_alg».proof.Proof.MatMul4
import proofs.«131590_j68728066670865_1_alg».proof.Proof.BiasRelu1
import proofs.«131590_j68728066670865_1_alg».proof.Proof.BiasRelu3
import proofs.«131590_j68728066670865_1_alg».proof.Proof.BiasRelu5
import proofs.«131590_j68728066670865_1_alg».proof.Proof.LogSoftmax6
import Idealize.ShloMosaic.Lib.ValueIdx
import Idealize.ShloMosaic.Lib.ValueLayout
import Idealize.ShloMosaic.PureOps.Ideal.Laws
import Idealize.ShloMosaic.PureOps.Reduce

set_option maxRecDepth 16384

noncomputable section

namespace Cert.Bridge

open Cert.ReferenceIdeal Cert.ReferenceIdeal.Gen Idealize.ShloMosaic Idealize.ShloMosaic.TcCoe Idealize.ShloMosaic.ValueIdx

/-- Layer product (region 0): the kernel's row-tiled product into a zero accumulator and the reference's one
    `dot_general` are the same sum over the inner index, entry by entry. -/
theorem product0_eq (x0 : FVec Ideal S100000x256 .f32) (x2 : FVec Ideal S256x128 .f32) :
    Cert.KernelIdeal.MatMul0.product x0 x2 = Cert.ReferenceIdeal.ReadP.val_main_v33 (F := Ideal) x0 x2 := by
  funext i
  rw [Cert.ReferenceIdeal.ReadP.val_main_v33_apply]
  rfl

/-- Layer bias and clamp (region 1): the kernel adds the bias reshaped to one row and clamps in place; the reference
    broadcasts the bias over the rows, adds, and takes the maximum with a zero array.  Entry by entry both are
    max (aggregate + bias, 0). -/
theorem biasRelu1_eq (x0 : FVec Ideal S100000x256 .f32) (x1 : IVec S2x1600000 32) (x2 : FVec Ideal S256x128 .f32) (x3 : FVec Ideal S128 .f32) (h : S128.ShapeCasts S1x128) :
    Cert.KernelIdeal.BiasRelu1.biasRelu (Cert.ReferenceIdeal.ReadP.val_main_v45 (F := Ideal) x0 x1 x2) (shapeCast S1x128 x3 h)
      = Cert.ReferenceIdeal.ReadP.val_main_v49 (F := Ideal) x0 x1 x2 x3 := by
  funext i
  rw [Cert.ReferenceIdeal.ReadP.val_main_v49_apply, Cert.ReferenceIdeal.ReadP.val_main_v48_apply, Cert.ReferenceIdeal.ReadP.val_main_v47_apply, Cert.ReferenceIdeal.ReadP.val_main_v46_apply, Cert.ReferenceIdeal.ReadP.val_main_call1_v0_apply, Cert.ReferenceIdeal.ReadP.val_main_call1_cst_apply]
  unfold Cert.KernelIdeal.BiasRelu1.biasRelu
  have e : Cert.ReferenceIdeal.ReadP.idx_main_v46 (Cert.ReferenceIdeal.ReadP.idx_main_v47 i) = ix1 (⟨(i 1).val, (i 1).isLt⟩ : Fin 128) :=
    funext fun a => Fin.ext (by match a with | ⟨0, _⟩ => rfl)
  rw [e, shapeCast_a_1a_apply]
  simp only [Ideal.maximumf_def, Ideal.addf_def, Ideal.ofBits_def, Ideal.ofBits_zero_f32]

/-- Layer product (region 2): the kernel's row-tiled product into a zero accumulator and the reference's one
    `dot_general` are the same sum over the inner index, entry by entry. -/
theorem product2_eq (x0 : FVec Ideal S100000x256 .f32) (x1 : IVec S2x1600000 32) (x2 : FVec Ideal S256x128 .f32) (x3 : FVec Ideal S128 .f32) (x4 : FVec Ideal S128x128 .f32) :
    Cert.KernelIdeal.MatMul2.product (Cert.ReferenceIdeal.ReadP.val_main_v49 (F := Ideal) x0 x1 x2 x3) x4 = Cert.ReferenceIdeal.ReadP.val_main_v50 (F := Ideal) x0 x1 x2 x3 x4 := by
  funext i
  rw [Cert.ReferenceIdeal.ReadP.val_main_v50_apply]
  rfl

/-- Layer bias and clamp (region 3): the kernel adds the bias reshaped to one row and clamps in place; the reference
    broadcasts the bias over the rows, adds, and takes the maximum with a zero array.  Entry by entry both are
    max (aggregate + bias, 0). -/
theorem biasRelu3_eq (x0 : FVec Ideal S100000x256 .f32) (x1 : IVec S2x1600000 32) (x2 : FVec Ideal S256x128 .f32) (x3 : FVec Ideal S128 .f32) (x4 : FVec Ideal S128x128 .f32) (x5 : FVec Ideal S128 .f32) (h : S128.ShapeCasts S1x128) :
    Cert.KernelIdeal.BiasRelu3.biasRelu (Cert.ReferenceIdeal.ReadP.val_main_v62 (F := Ideal) x0 x1 x2 x3 x4) (shapeCast S1x128 x5 h)
      = Cert.ReferenceIdeal.ReadP.val_main_v66 (F := Ideal) x0 x1 x2 x3 x4 x5 := by
  funext i
  rw [Cert.ReferenceIdeal.ReadP.val_main_v66_apply, Cert.ReferenceIdeal.ReadP.val_main_v65_apply, Cert.ReferenceIdeal.ReadP.val_main_v64_apply, Cert.ReferenceIdeal.ReadP.val_main_v63_apply, Cert.ReferenceIdeal.ReadP.val_main_call2_v0_apply, Cert.ReferenceIdeal.ReadP.val_main_call2_cst_apply]
  unfold Cert.KernelIdeal.BiasRelu3.biasRelu
  have e : Cert.ReferenceIdeal.ReadP.idx_main_v63 (Cert.ReferenceIdeal.ReadP.idx_main_v64 i) = ix1 (⟨(i 1).val, (i 1).isLt⟩ : Fin 128) :=
    funext fun a => Fin.ext (by match a with | ⟨0, _⟩ => rfl)
  rw [e, shapeCast_a_1a_apply]
  simp only [Ideal.maximumf_def, Ideal.addf_def, Ideal.ofBits_def, Ideal.ofBits_zero_f32]

/-- Layer product (region 4): the kernel's row-tiled product into a zero accumulator and the reference's one
    `dot_general` are the same sum over the inner index, entry by entry. -/
theorem product4_eq (x0 : FVec Ideal S100000x256 .f32) (x1 : IVec S2x1600000 32) (x2 : FVec Ideal S256x128 .f32) (x3 : FVec Ideal S128 .f32) (x4 : FVec Ideal S128x128 .f32) (x5 : FVec Ideal S128 .f32) (x6 : FVec Ideal S128x40 .f32) :
    Cert.KernelIdeal.MatMul4.product (Cert.ReferenceIdeal.ReadP.val_main_v66 (F := Ideal) x0 x1 x2 x3 x4 x5) x6 = Cert.ReferenceIdeal.ReadP.val_main_v67 (F := Ideal) x0 x1 x2 x3 x4 x5 x6 := by
  funext i
  rw [Cert.ReferenceIdeal.ReadP.val_main_v67_apply]
  rfl

/-- Layer bias and clamp (region 5): the kernel adds the bias reshaped to one row and clamps in place; the reference
    broadcasts the bias over the rows, adds, and takes the maximum with a zero array.  Entry by entry both are
    max (aggregate + bias, 0). -/
theorem biasRelu5_eq (x0 : FVec Ideal S100000x256 .f32) (x1 : IVec S2x1600000 32) (x2 : FVec Ideal S256x128 .f32) (x3 : FVec Ideal S128 .f32) (x4 : FVec Ideal S128x128 .f32) (x5 : FVec Ideal S128 .f32) (x6 : FVec Ideal S128x40 .f32) (x7 : FVec Ideal S40 .f32) (h : S40.ShapeCasts S1x40) :
    Cert.KernelIdeal.BiasRelu5.biasRelu (Cert.ReferenceIdeal.ReadP.val_main_v79 (F := Ideal) x0 x1 x2 x3 x4 x5 x6) (shapeCast S1x40 x7 h)
      = Cert.ReferenceIdeal.ReadP.val_main_v83 (F := Ideal) x0 x1 x2 x3 x4 x5 x6 x7 := by
  funext i
  rw [Cert.ReferenceIdeal.ReadP.val_main_v83_apply, Cert.ReferenceIdeal.ReadP.val_main_v82_apply, Cert.ReferenceIdeal.ReadP.val_main_v81_apply, Cert.ReferenceIdeal.ReadP.val_main_v80_apply, Cert.ReferenceIdeal.ReadP.val_main_call3_v0_apply, Cert.ReferenceIdeal.ReadP.val_main_call3_cst_apply]
  unfold Cert.KernelIdeal.BiasRelu5.biasRelu
  have e : Cert.ReferenceIdeal.ReadP.idx_main_v80 (Cert.ReferenceIdeal.ReadP.idx_main_v81 i) = ix1 (⟨(i 1).val, (i 1).isLt⟩ : Fin 40) :=
    funext fun a => Fin.ext (by match a with | ⟨0, _⟩ => rfl)
  rw [e, shapeCast_a_1a_apply]
  simp only [Ideal.maximumf_def, Ideal.addf_def, Ideal.ofBits_def, Ideal.ofBits_zero_f32]

/-! ## The row-wise log-softmax -/

open Cert.KernelIdeal.LogSoftmax6 (rowMax rowAt logSoftmax)

/-- The host's maximum-reduction of a [100000, 40] array along its rows from minus infinity, read at row `j`. -/
theorem hostRowMax (y : FVec Ideal S100000x40 .f32) (j : S100000.Idx) :
    Host.reduce FloatOps.maximumf y (constant (F := Ideal) S_ .f32 0xFF800000#32) reducesTo_S100000x40_S100000_d1 h_S_ j
      = rowMax fun k => y (Cert.ReferenceIdeal.ReadP.idx_main_call4_v7 j k) := by
  rw [Host.reduce_eq_fold_single FloatOps.maximumf y _ reducesTo_S100000x40_S100000_d1 (by decide) h_S_ j]
  unfold rowMax
  refine congrArg (Finset.fold max (Ideal.ofBits .f32 0xFF800000#32) · (Finset.univ : Finset (Fin 40))) ?_
  funext k
  exact congrArg y (funext fun a => Fin.ext (by match a with | ⟨0, _⟩ => rfl | ⟨1, _⟩ => rfl))

/-- The reference's row maximum: the host's maximum-reduction from minus infinity, then a maximum with minus infinity
    again, which changes nothing since the fold already starts there. -/
theorem refRowMax (x0 : FVec Ideal S100000x256 .f32) (x1 : IVec S2x1600000 32) (x2 : FVec Ideal S256x128 .f32) (x3 : FVec Ideal S128 .f32) (x4 : FVec Ideal S128x128 .f32) (x5 : FVec Ideal S128 .f32) (x6 : FVec Ideal S128x40 .f32) (x7 : FVec Ideal S40 .f32) (j : S100000.Idx) :
    Cert.ReferenceIdeal.ReadP.val_main_call4_v2 (F := Ideal) x0 x1 x2 x3 x4 x5 x6 x7 j = rowMax fun k => Cert.ReferenceIdeal.ReadP.val_main_v83 (F := Ideal) x0 x1 x2 x3 x4 x5 x6 x7 (Cert.ReferenceIdeal.ReadP.idx_main_call4_v7 j k) := by
  rw [Cert.ReferenceIdeal.ReadP.val_main_call4_v2_apply, Cert.ReferenceIdeal.ReadP.val_main_call4_v1_apply, Cert.ReferenceIdeal.ReadP.val_main_call4_cst_0_apply]
  unfold Cert.ReferenceIdeal.ReadP.val_main_call4_v0 Cert.ReferenceIdeal.ReadP.val_main_call4_cst
  rw [hostRowMax]
  unfold rowMax
  exact max_eq_right ((Finset.le_fold_max _).2 (Or.inl le_rfl))

/-- The reference's shifted array: each entry minus its row's maximum. -/
theorem refShifted (x0 : FVec Ideal S100000x256 .f32) (x1 : IVec S2x1600000 32) (x2 : FVec Ideal S256x128 .f32) (x3 : FVec Ideal S128 .f32) (x4 : FVec Ideal S128x128 .f32) (x5 : FVec Ideal S128 .f32) (x6 : FVec Ideal S128x40 .f32) (x7 : FVec Ideal S40 .f32) (i : S100000x40.Idx) :
    Cert.ReferenceIdeal.ReadP.val_main_call4_v5 (F := Ideal) x0 x1 x2 x3 x4 x5 x6 x7 i
      = Cert.ReferenceIdeal.ReadP.val_main_v83 (F := Ideal) x0 x1 x2 x3 x4 x5 x6 x7 i - rowMax fun k => Cert.ReferenceIdeal.ReadP.val_main_v83 (F := Ideal) x0 x1 x2 x3 x4 x5 x6 x7 (rowAt i k) := by
  rw [Cert.ReferenceIdeal.ReadP.val_main_call4_v5_apply, Cert.ReferenceIdeal.ReadP.val_main_call4_v4_apply, Cert.ReferenceIdeal.ReadP.val_main_call4_v3_apply, refRowMax]
  have e : (fun k => Cert.ReferenceIdeal.ReadP.val_main_v83 (F := Ideal) x0 x1 x2 x3 x4 x5 x6 x7 (Cert.ReferenceIdeal.ReadP.idx_main_call4_v7 (Cert.ReferenceIdeal.ReadP.idx_main_call4_v3 (Cert.ReferenceIdeal.ReadP.idx_main_call4_v4 i)) k))
      = fun k => Cert.ReferenceIdeal.ReadP.val_main_v83 (F := Ideal) x0 x1 x2 x3 x4 x5 x6 x7 (rowAt i k) :=
    funext fun k => congrArg (Cert.ReferenceIdeal.ReadP.val_main_v83 (F := Ideal) x0 x1 x2 x3 x4 x5 x6 x7) (funext fun a => Fin.ext (by match a with | ⟨0, _⟩ => rfl | ⟨1, _⟩ => rfl))
  rw [e]
  rfl

/-- The reference's logarithm of the row sums of exponentials, broadcast back over the rows. -/
theorem refLogSum (x0 : FVec Ideal S100000x256 .f32) (x1 : IVec S2x1600000 32) (x2 : FVec Ideal S256x128 .f32) (x3 : FVec Ideal S128 .f32) (x4 : FVec Ideal S128x128 .f32) (x5 : FVec Ideal S128 .f32) (x6 : FVec Ideal S128x40 .f32) (x7 : FVec Ideal S40 .f32) (i : S100000x40.Idx) :
    Cert.ReferenceIdeal.ReadP.val_main_call4_v10 (F := Ideal) x0 x1 x2 x3 x4 x5 x6 x7 i
      = Ideal.log (∑ k : Fin 40, Ideal.exp (Cert.ReferenceIdeal.ReadP.val_main_v83 (F := Ideal) x0 x1 x2 x3 x4 x5 x6 x7 (rowAt i k) - rowMax fun k' => Cert.ReferenceIdeal.ReadP.val_main_v83 (F := Ideal) x0 x1 x2 x3 x4 x5 x6 x7 (rowAt i k'))) := by
  rw [Cert.ReferenceIdeal.ReadP.val_main_call4_v10_apply, Cert.ReferenceIdeal.ReadP.val_main_call4_v9_apply, Cert.ReferenceIdeal.ReadP.val_main_call4_v8_apply, Cert.ReferenceIdeal.ReadP.val_main_call4_v7_apply, Cert.ReferenceIdeal.ReadP.val_main_call4_cst_1_apply]
  simp only [Ideal.hostUnary_log_def, Ideal.ofBits_def, Ideal.ofBits_zero_f32, zero_add]
  refine congrArg Ideal.log (Finset.sum_congr rfl fun k _ => ?_)
  rw [Cert.ReferenceIdeal.ReadP.val_main_call4_v6_apply, refShifted, Ideal.hostUnary_exp_def]
  have e1 : Cert.ReferenceIdeal.ReadP.idx_main_call4_v7 (Cert.ReferenceIdeal.ReadP.idx_main_call4_v8 (Cert.ReferenceIdeal.ReadP.idx_main_call4_v10 i)) k = rowAt i k := funext fun a => Fin.ext (by match a with | ⟨0, _⟩ => rfl | ⟨1, _⟩ => rfl)
  rw [e1]

/-- The kernel's tile-by-tile log-softmax of the last layer's output is the reference's `log_softmax`. -/
theorem logSoftmax_eq (x0 : FVec Ideal S100000x256 .f32) (x1 : IVec S2x1600000 32) (x2 : FVec Ideal S256x128 .f32) (x3 : FVec Ideal S128 .f32) (x4 : FVec Ideal S128x128 .f32) (x5 : FVec Ideal S128 .f32) (x6 : FVec Ideal S128x40 .f32) (x7 : FVec Ideal S40 .f32) :
    logSoftmax (Cert.ReferenceIdeal.ReadP.val_main_v83 (F := Ideal) x0 x1 x2 x3 x4 x5 x6 x7) = Cert.ReferenceIdeal.ReadP.val_main_v84 (F := Ideal) x0 x1 x2 x3 x4 x5 x6 x7 := by
  funext i
  rw [Cert.ReferenceIdeal.ReadP.val_main_v84_apply, refShifted, refLogSum]
  rfl

end Cert.Bridge

end
-- ==== Proof.KStages.lean ====
/-
  The idealized kernel's buffers at the boundaries between its regions and stretches of host operations, each read as the
  corresponding stage of the reference.  Both programs compute the message sources, targets and edge weights from the edge
  list by the same operations and aggregate with the same gather, scaling and scatter-add; they differ only in how the three
  matrix products, the three bias-and-clamp steps and the final row-wise log-softmax are carried out, and for each of those
  the region's whole-array function is the reference's stage.
-/
import proofs.«131590_j68728066670865_1_alg».proof.Proof.Gen.KernelIdeal.Frame
import proofs.«131590_j68728066670865_1_alg».proof.Proof.Carry
import proofs.«131590_j68728066670865_1_alg».proof.Proof.RefRead
import proofs.«131590_j68728066670865_1_alg».proof.Proof.Bridge

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- The launch contents of the arguments on core `c`. -/
abbrev a0 (c : Dev nD) : FVec Ideal S100000x256 .f32 := m ((c.tc : Thread nD τ).loc main_arg0)
abbrev a1 (c : Dev nD) : IVec S2x1600000 32 := m ((c.tc : Thread nD τ).loc main_arg1)
abbrev a2 (c : Dev nD) : FVec Ideal S256x128 .f32 := m ((c.tc : Thread nD τ).loc main_arg2)
abbrev a3 (c : Dev nD) : FVec Ideal S128 .f32 := m ((c.tc : Thread nD τ).loc main_arg3)
abbrev a4 (c : Dev nD) : FVec Ideal S128x128 .f32 := m ((c.tc : Thread nD τ).loc main_arg4)
abbrev a5 (c : Dev nD) : FVec Ideal S128 .f32 := m ((c.tc : Thread nD τ).loc main_arg5)
abbrev a6 (c : Dev nD) : FVec Ideal S128x40 .f32 := m ((c.tc : Thread nD τ).loc main_arg6)
abbrev a7 (c : Dev nD) : FVec Ideal S40 .f32 := m ((c.tc : Thread nD τ).loc main_arg7)

/-! ## Before the first region: sources, targets, degrees, and the edge weights -/

set_option maxHeartbeats 4000000 in
theorem src_W1 (c : Dev nD) : W1 m ρ c (Proc.devRef .tc main_v3) = Cert.ReferenceIdeal.ReadP.val_main_v3 (F := Ideal) (a1 m c) := by
  show StableHlo.after hostOps0 (W0 m ρ c) (Proc.devRef .tc main_v3) = _
  after_results
  rfl
set_option maxHeartbeats 4000000 in
theorem dst_W1 (c : Dev nD) : W1 m ρ c (Proc.devRef .tc main_v6) = Cert.ReferenceIdeal.ReadP.val_main_v6 (F := Ideal) (a1 m c) := by
  show StableHlo.after hostOps0 (W0 m ρ c) (Proc.devRef .tc main_v6) = _
  after_results
  rfl
set_option maxHeartbeats 4000000 in
theorem degPos_W1 (c : Dev nD) : W1 m ρ c (Proc.devRef .tc main_v12) = Cert.ReferenceIdeal.ReadP.val_main_v12 (F := Ideal) (a1 m c) := by
  show StableHlo.after hostOps0 (W0 m ρ c) (Proc.devRef .tc main_v12) = _
  after_results
  rfl
set_option maxHeartbeats 4000000 in
theorem degRsqrt_W1 (c : Dev nD) : W1 m ρ c (Proc.devRef .tc main_v15) = Cert.ReferenceIdeal.ReadP.val_main_v15 (F := Ideal) (a1 m c) := by
  show StableHlo.after hostOps0 (W0 m ρ c) (Proc.devRef .tc main_v15) = _
  after_results
  rfl
theorem zero_W1 (c : Dev nD) : W1 m ρ c (Proc.devRef .tc main_cst_3) = Cert.ReferenceIdeal.ReadP.val_main_cst_3 (F := Ideal) := by
  show StableHlo.after hostOps0 (W0 m ρ c) (Proc.devRef .tc main_cst_3) = _
  after_results
  rfl

/-- The inverse square roots of the degrees, zero where the degree is not positive. -/
theorem dinv_W2 (c : Dev nD) : W2 m ρ c (Proc.devRef .tc main_v16) = Cert.ReferenceIdeal.ReadP.val_main_v16 (F := Ideal) (a1 m c) := by
  have h12 := degPos_W1 m ρ c
  have h15 := degRsqrt_W1 m ρ c
  have hz := zero_W1 m ρ c
  show StableHlo.after hostOps0_1 (W1 m ρ c) (Proc.devRef .tc main_v16) = _
  generalize W1 m ρ c = U at h12 h15 hz ⊢
  after_results
  show select (U (Proc.devRef .tc main_v12)) (U (Proc.devRef .tc main_v15)) (broadcastInDim S100000 ![] bcast_S_S100000 (id (U (Proc.devRef .tc main_cst_3)))) = _
  rw [h12, h15, hz]
  rfl

theorem src_W2 (c : Dev nD) : W2 m ρ c (Proc.devRef .tc main_v3) = Cert.ReferenceIdeal.ReadP.val_main_v3 (F := Ideal) (a1 m c) :=
  (Carry.main_v3_W2_W1 m ρ c).trans (src_W1 m ρ c)
theorem dst_W2 (c : Dev nD) : W2 m ρ c (Proc.devRef .tc main_v6) = Cert.ReferenceIdeal.ReadP.val_main_v6 (F := Ideal) (a1 m c) :=
  (Carry.main_v6_W2_W1 m ρ c).trans (dst_W1 m ρ c)
theorem src_W3 (c : Dev nD) : W3 m ρ c (Proc.devRef .tc main_v3) = Cert.ReferenceIdeal.ReadP.val_main_v3 (F := Ideal) (a1 m c) :=
  (Carry.main_v3_W3_W1 m ρ c).trans (src_W1 m ρ c)
theorem dst_W3 (c : Dev nD) : W3 m ρ c (Proc.devRef .tc main_v6) = Cert.ReferenceIdeal.ReadP.val_main_v6 (F := Ideal) (a1 m c) :=
  (Carry.main_v6_W3_W1 m ρ c).trans (dst_W1 m ρ c)

set_option maxHeartbeats 4000000 in
/-- The edge weights: the product of the two endpoints' inverse square-root degrees. -/
theorem weight_W3 (c : Dev nD) : W3 m ρ c (Proc.devRef .tc main_v32) = Cert.ReferenceIdeal.ReadP.val_main_v32 (F := Ideal) (a1 m c) := by
  have h3 := src_W2 m ρ c
  have h6 := dst_W2 m ρ c
  have h16 := dinv_W2 m ρ c
  show StableHlo.after hostOps0_2 (W2 m ρ c) (Proc.devRef .tc main_v32) = _
  generalize W2 m ρ c = U at h3 h6 h16 ⊢
  after_results_simp
  rw [h3, h6, h16]
  rfl

theorem src_W4 (c : Dev nD) : W4 m ρ c (Proc.devRef .tc main_v3) = Cert.ReferenceIdeal.ReadP.val_main_v3 (F := Ideal) (a1 m c) :=
  (Carry.main_v3_W4_W3 m ρ c).trans (src_W3 m ρ c)
theorem dst_W4 (c : Dev nD) : W4 m ρ c (Proc.devRef .tc main_v6) = Cert.ReferenceIdeal.ReadP.val_main_v6 (F := Ideal) (a1 m c) :=
  (Carry.main_v6_W4_W3 m ρ c).trans (dst_W3 m ρ c)
theorem weight_W4 (c : Dev nD) : W4 m ρ c (Proc.devRef .tc main_v32) = Cert.ReferenceIdeal.ReadP.val_main_v32 (F := Ideal) (a1 m c) :=
  (Carry.main_v32_W4_W3 m ρ c).trans (weight_W3 m ρ c)
theorem src_W7 (c : Dev nD) : W7 m ρ c (Proc.devRef .tc main_v3) = Cert.ReferenceIdeal.ReadP.val_main_v3 (F := Ideal) (a1 m c) :=
  (Carry.main_v3_W7_W4 m ρ c).trans (src_W4 m ρ c)
theorem dst_W7 (c : Dev nD) : W7 m ρ c (Proc.devRef .tc main_v6) = Cert.ReferenceIdeal.ReadP.val_main_v6 (F := Ideal) (a1 m c) :=
  (Carry.main_v6_W7_W4 m ρ c).trans (dst_W4 m ρ c)
theorem weight_W7 (c : Dev nD) : W7 m ρ c (Proc.devRef .tc main_v32) = Cert.ReferenceIdeal.ReadP.val_main_v32 (F := Ideal) (a1 m c) :=
  (Carry.main_v32_W7_W4 m ρ c).trans (weight_W4 m ρ c)
theorem src_W10 (c : Dev nD) : W10 m ρ c (Proc.devRef .tc main_v3) = Cert.ReferenceIdeal.ReadP.val_main_v3 (F := Ideal) (a1 m c) :=
  (Carry.main_v3_W10_W7 m ρ c).trans (src_W7 m ρ c)
theorem dst_W10 (c : Dev nD) : W10 m ρ c (Proc.devRef .tc main_v6) = Cert.ReferenceIdeal.ReadP.val_main_v6 (F := Ideal) (a1 m c) :=
  (Carry.main_v6_W10_W7 m ρ c).trans (dst_W7 m ρ c)
theorem weight_W10 (c : Dev nD) : W10 m ρ c (Proc.devRef .tc main_v32) = Cert.ReferenceIdeal.ReadP.val_main_v32 (F := Ideal) (a1 m c) :=
  (Carry.main_v32_W10_W7 m ρ c).trans (weight_W7 m ρ c)

/-! ## The three layers -/

/-- After the first product region: the reference's first `dot_general`. -/
theorem prod1 (c : Dev nD) : W4 m ρ c (Proc.devRef .tc main_v33) = Cert.ReferenceIdeal.ReadP.val_main_v33 (F := Ideal) (a0 m c) (a2 m c) :=
  (W4_arr m ρ c 2).trans ((MatMul0.final (V3 m ρ) c).trans
    ((congrArg₂ MatMul0.product (Carry.main_arg0_W3_W0 m ρ c) (Carry.main_arg2_W3_W0 m ρ c)).trans (Cert.Bridge.product0_eq _ _)))

/-! ## Aggregation 1: gather the product's rows at the sources, scale by the edge weights, add up at the targets -/

set_option maxHeartbeats 4000000 in
theorem agg1 (c : Dev nD) : W5 m ρ c (Proc.devRef .tc main_v45) = Cert.ReferenceIdeal.ReadP.val_main_v45 (F := Ideal) (a0 m c) (a1 m c) (a2 m c) := by
  have h3 := src_W4 m ρ c
  have h6 := dst_W4 m ρ c
  have h32 := weight_W4 m ρ c
  have hp := prod1 m ρ c
  show StableHlo.after hostOps1 (W4 m ρ c) (Proc.devRef .tc main_v45) = _
  generalize W4 m ρ c = U at h3 h6 h32 hp ⊢
  after_results_simp
  rw [h3, h6, h32, hp]
  rfl

theorem biasRow1 (c : Dev nD) : W5 m ρ c (Proc.devRef .tc main_v46) = shapeCast S1x128 (a3 m c) shapeCasts_S128_S1x128 := by
  have h := Carry.main_arg3_W4_W0 m ρ c
  show StableHlo.after hostOps1 (W4 m ρ c) (Proc.devRef .tc main_v46) = _
  generalize W4 m ρ c = U at h ⊢
  after_results
  rw [h]
  rfl

/-- After the bias-and-clamp region the layer's output is the reference's clamped stage. -/
theorem relu1 (c : Dev nD) : W6 m ρ c (Proc.devRef .tc main_v47) = Cert.ReferenceIdeal.ReadP.val_main_v49 (F := Ideal) (a0 m c) (a1 m c) (a2 m c) (a3 m c) :=
  (W6_arr m ρ c 2).trans ((BiasRelu1.final (V5 m ρ) c).trans
    ((congrArg₂ BiasRelu1.biasRelu (agg1 m ρ c) (biasRow1 m ρ c)).trans (Cert.Bridge.biasRelu1_eq _ _ _ _ _)))

/-- After the second product region. -/
theorem prod2 (c : Dev nD) : W7 m ρ c (Proc.devRef .tc main_v48) = Cert.ReferenceIdeal.ReadP.val_main_v50 (F := Ideal) (a0 m c) (a1 m c) (a2 m c) (a3 m c) (a4 m c) :=
  (W7_arr m ρ c 2).trans ((MatMul2.final (V6 m ρ) c).trans
    ((congrArg₂ MatMul2.product (relu1 m ρ c) (Carry.main_arg4_W6_W0 m ρ c)).trans (Cert.Bridge.product2_eq _ _ _ _ _)))

/-! ## Aggregation 2: gather the product's rows at the sources, scale by the edge weights, add up at the targets -/

set_option maxHeartbeats 4000000 in
theorem agg2 (c : Dev nD) : W8 m ρ c (Proc.devRef .tc main_v60) = Cert.ReferenceIdeal.ReadP.val_main_v62 (F := Ideal) (a0 m c) (a1 m c) (a2 m c) (a3 m c) (a4 m c) := by
  have h3 := src_W7 m ρ c
  have h6 := dst_W7 m ρ c
  have h32 := weight_W7 m ρ c
  have hp := prod2 m ρ c
  show StableHlo.after hostOps3 (W7 m ρ c) (Proc.devRef .tc main_v60) = _
  generalize W7 m ρ c = U at h3 h6 h32 hp ⊢
  after_results_simp
  rw [h3, h6, h32, hp]
  rfl

theorem biasRow2 (c : Dev nD) : W8 m ρ c (Proc.devRef .tc main_v61) = shapeCast S1x128 (a5 m c) shapeCasts_S128_S1x128 := by
  have h := Carry.main_arg5_W7_W0 m ρ c
  show StableHlo.after hostOps3 (W7 m ρ c) (Proc.devRef .tc main_v61) = _
  generalize W7 m ρ c = U at h ⊢
  after_results
  rw [h]
  rfl

/-- After the bias-and-clamp region the layer's output is the reference's clamped stage. -/
theorem relu2 (c : Dev nD) : W9 m ρ c (Proc.devRef .tc main_v62) = Cert.ReferenceIdeal.ReadP.val_main_v66 (F := Ideal) (a0 m c) (a1 m c) (a2 m c) (a3 m c) (a4 m c) (a5 m c) :=
  (W9_arr m ρ c 2).trans ((BiasRelu3.final (V8 m ρ) c).trans
    ((congrArg₂ BiasRelu3.biasRelu (agg2 m ρ c) (biasRow2 m ρ c)).trans (Cert.Bridge.biasRelu3_eq _ _ _ _ _ _ _)))

/-- After the third product region. -/
theorem prod3 (c : Dev nD) : W10 m ρ c (Proc.devRef .tc main_v63) = Cert.ReferenceIdeal.ReadP.val_main_v67 (F := Ideal) (a0 m c) (a1 m c) (a2 m c) (a3 m c) (a4 m c) (a5 m c) (a6 m c) :=
  (W10_arr m ρ c 2).trans ((MatMul4.final (V9 m ρ) c).trans
    ((congrArg₂ MatMul4.product (relu2 m ρ c) (Carry.main_arg6_W9_W0 m ρ c)).trans (Cert.Bridge.product4_eq _ _ _ _ _ _ _)))

/-! ## Aggregation 3: gather the product's rows at the sources, scale by the edge weights, add up at the targets -/

set_option maxHeartbeats 4000000 in
theorem agg3 (c : Dev nD) : W11 m ρ c (Proc.devRef .tc main_v75) = Cert.ReferenceIdeal.ReadP.val_main_v79 (F := Ideal) (a0 m c) (a1 m c) (a2 m c) (a3 m c) (a4 m c) (a5 m c) (a6 m c) := by
  have h3 := src_W10 m ρ c
  have h6 := dst_W10 m ρ c
  have h32 := weight_W10 m ρ c
  have hp := prod3 m ρ c
  show StableHlo.after hostOps5 (W10 m ρ c) (Proc.devRef .tc main_v75) = _
  generalize W10 m ρ c = U at h3 h6 h32 hp ⊢
  after_results_simp
  rw [h3, h6, h32, hp]
  rfl

theorem biasRow3 (c : Dev nD) : W11 m ρ c (Proc.devRef .tc main_v76) = shapeCast S1x40 (a7 m c) shapeCasts_S40_S1x40 := by
  have h := Carry.main_arg7_W10_W0 m ρ c
  show StableHlo.after hostOps5 (W10 m ρ c) (Proc.devRef .tc main_v76) = _
  generalize W10 m ρ c = U at h ⊢
  after_results
  rw [h]
  rfl

/-- After the bias-and-clamp region the layer's output is the reference's clamped stage. -/
theorem relu3 (c : Dev nD) : W12 m ρ c (Proc.devRef .tc main_v77) = Cert.ReferenceIdeal.ReadP.val_main_v83 (F := Ideal) (a0 m c) (a1 m c) (a2 m c) (a3 m c) (a4 m c) (a5 m c) (a6 m c) (a7 m c) :=
  (W12_arr m ρ c 2).trans ((BiasRelu5.final (V11 m ρ) c).trans
    ((congrArg₂ BiasRelu5.biasRelu (agg3 m ρ c) (biasRow3 m ρ c)).trans (Cert.Bridge.biasRelu5_eq _ _ _ _ _ _ _ _ _)))

/-! ## The result -/

/-- After the last region the result buffer holds the reference's last stage of the launch contents of the arguments. -/
theorem result (c : Dev nD) : W13 m ρ c (Proc.devRef .tc main_v78) = Cert.ReferenceIdeal.ReadP.val_main_v84 (F := Ideal) (a0 m c) (a1 m c) (a2 m c) (a3 m c) (a4 m c) (a5 m c) (a6 m c) (a7 m c) :=
  (W13_arr m ρ c 1).trans ((LogSoftmax6.final (V12 m ρ) c).trans
    ((congrArg LogSoftmax6.logSoftmax (relu3 m ρ c)).trans (Cert.Bridge.logSoftmax_eq _ _ _ _ _ _ _ _)))

end Cert.KernelIdeal.Stages

end
-- ==== Proof.RefOps.lean ====
/-
  The reference's @main as a list of its 125 host operations, in order, and the same list cut into fifteen pieces where the
  program's mathematics cuts it: the degrees; their inverse square roots; the edge weights; for each of three layers the
  product, aggregation over the edges and bias, then the clamp; and the row-wise log-softmax in six short steps (the row
  maximum, the shift by it, the row sums of exponentials, their logarithm, the final difference).  Running a concatenation of lines of operations is
  running them one after the other.
-/
import proofs.«131590_j68728066670865_1_alg».proof.Proof.Gen.ReferenceIdeal
import Idealize.ShloMosaic.Lib.StableHlo.Run
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

section Ops
variable {F : FTy → Type} [FloatOps F]

/-- @main's 125 operations, in order (a called function's operations stand in its call's place). -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)),
    unary main_v31 main_v32 (broadcastInDim S1700000x1 ![0] bcast_S1700000_S1700000x1_0 : (⟨S1700000, .f32⟩ : BufTy).Contents (Elt F) → (⟨S1700000x1, .f32⟩ : BufTy).Contents (Elt F)),
    binary main_arg0 main_arg2 main_v33 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_c_7 (constantI S_ 32 0#32),
    unary main_c_7 main_v34 (broadcastInDim S1700000 ![] bcast_S_S1700000 : (⟨S_, .i32⟩ : BufTy).Contents (Elt F) → (⟨S1700000, .i32⟩ : BufTy).Contents (Elt F)),
    binary main_v3 main_v34 main_v35 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v36 (broadcastInDim S1700000 ![] bcast_S_S1700000 : (⟨S_, .i32⟩ : BufTy).Contents (Elt F) → (⟨S1700000, .i32⟩ : BufTy).Contents (Elt F)),
    binary main_v3 main_v36 main_v37 (addi : (⟨S1700000, .i32⟩ : BufTy).Contents (Elt F) → (⟨S1700000, .i32⟩ : BufTy).Contents (Elt F) → (⟨S1700000, .i32⟩ : BufTy).Contents (Elt F)),
    ternary main_v35 main_v37 main_v3 main_v38 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v38 main_v39 (broadcastInDim S1700000x1 ![0] bcast_S1700000_S1700000x1_0 : (⟨S1700000, .i32⟩ : BufTy).Contents (Elt F) → (⟨S1700000x1, .i32⟩ : BufTy).Contents (Elt F)),
    binary main_v33 main_v39 main_v40 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v32 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v40 main_v41 main_v42 (mulf : (⟨S1700000x128, .f32⟩ : BufTy).Contents (Elt F) → (⟨S1700000x128, .f32⟩ : BufTy).Contents (Elt F) → (⟨S1700000x128, .f32⟩ : BufTy).Contents (Elt F)),
    nullary main_cst_9 (constant S_ .f32 0x00000000#32),
    unary main_cst_9 main_v43 (broadcastInDim S100000x128 ![] bcast_S_S100000x128 : (⟨S_, .f32⟩ : BufTy).Contents (Elt F) → (⟨S100000x128, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v48) (TRef.of (T := ⟨S100000x128, .f32⟩) main_call1_v0) (TRef.of (T := ⟨S100000x128, .f32⟩) main_v49) maximumf,
    binary main_v49 main_arg4 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_10 (constantI S_ 32 0#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v53 (broadcastInDim S1700000 ![] bcast_S_S1700000 : (⟨S_, .i32⟩ : BufTy).Contents (Elt F) → (⟨S1700000, .i32⟩ : BufTy).Contents (Elt F)),
    binary main_v3 main_v53 main_v54 (addi : (⟨S1700000, .i32⟩ : BufTy).Contents (Elt F) → (⟨S1700000, .i32⟩ : BufTy).Contents (Elt F) → (⟨S1700000, .i32⟩ : BufTy).Contents (Elt F)),
    ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v55 main_v56 (broadcastInDim S1700000x1 ![0] bcast_S1700000_S1700000x1_0 : (⟨S1700000, .i32⟩ : BufTy).Contents (Elt F) → (⟨S1700000x1, .i32⟩ : BufTy).Contents (Elt F)),
    binary main_v50 main_v56 main_v57 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v32 main_v58 (broadcastInDim S1700000x128 ![0, 1] bcast_S1700000x1_S1700000x128_0_1 : (⟨S1700000x1, .f32⟩ : BufTy).Contents (Elt F) → (⟨S1700000x128, .f32⟩ : BufTy).Contents (Elt F)),
    binary main_v57 main_v58 main_v59 (mulf : (⟨S1700000x128, .f32⟩ : BufTy).Contents (Elt F) → (⟨S1700000x128, .f32⟩ : BufTy).Contents (Elt F) → (⟨S1700000x128, .f32⟩ : BufTy).Contents (Elt F)),
    nullary main_cst_12 (constant S_ .f32 0x00000000#32),
    unary main_cst_12 main_v60 (broadcastInDim S100000x128 ![] bcast_S_S100000x128 : (⟨S_, .f32⟩ : BufTy).Contents (Elt F) → (⟨S100000x128, .f32⟩ : BufTy).Contents (Elt F)),
    unary main_v6 main_v61 (broadcastInDim S1700000x1 ![0] bcast_S1700000_S1700000x1_0 : (⟨S1700000, .i32⟩ : BufTy).Contents (Elt F) → (⟨S1700000x1, .i32⟩ : BufTy).Contents (Elt F)),
    ternary main_v60 main_v61 main_v59 main_v62 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v63 (broadcastInDim S1x128 ![1] bcast_S128_S1x128_1 : (⟨S128, .f32⟩ : BufTy).Contents (Elt F) → (⟨S1x128, .f32⟩ : BufTy).Contents (Elt F)),
    unary main_v63 main_v64 (broadcastInDim S100000x128 ![0, 1] bcast_S1x128_S100000x128_0_1 : (⟨S1x128, .f32⟩ : BufTy).Contents (Elt F) → (⟨S100000x128, .f32⟩ : BufTy).Contents (Elt F)),
    binary main_v62 main_v64 main_v65 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v65) (TRef.of (T := ⟨S100000x128, .f32⟩) main_call2_v0) (TRef.of (T := ⟨S100000x128, .f32⟩) main_v66) maximumf,
    binary main_v66 main_arg6 main_v67 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    nullary main_c_13 (constantI S_ 32 0#32),
    unary main_c_13 main_v68 (broadcastInDim S1700000 ![] bcast_S_S1700000 : (⟨S_, .i32⟩ : BufTy).Contents (Elt F) → (⟨S1700000, .i32⟩ : BufTy).Contents (Elt F)),
    binary main_v3 main_v68 main_v69 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v70 (broadcastInDim S1700000 ![] bcast_S_S1700000 : (⟨S_, .i32⟩ : BufTy).Contents (Elt F) → (⟨S1700000, .i32⟩ : BufTy).Contents (Elt F)),
    binary main_v3 main_v70 main_v71 (addi : (⟨S1700000, .i32⟩ : BufTy).Contents (Elt F) → (⟨S1700000, .i32⟩ : BufTy).Contents (Elt F) → (⟨S1700000, .i32⟩ : BufTy).Contents (Elt F)),
    ternary main_v69 main_v71 main_v3 main_v72 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v72 main_v73 (broadcastInDim S1700000x1 ![0] bcast_S1700000_S1700000x1_0 : (⟨S1700000, .i32⟩ : BufTy).Contents (Elt F) → (⟨S1700000x1, .i32⟩ : BufTy).Contents (Elt F)),
    binary main_v67 main_v73 main_v74 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v32 main_v75 (broadcastInDim S1700000x40 ![0, 1] bcast_S1700000x1_S1700000x40_0_1 : (⟨S1700000x1, .f32⟩ : BufTy).Contents (Elt F) → (⟨S1700000x40, .f32⟩ : BufTy).Contents (Elt F)),
    binary main_v74 main_v75 main_v76 (mulf : (⟨S1700000x40, .f32⟩ : BufTy).Contents (Elt F) → (⟨S1700000x40, .f32⟩ : BufTy).Contents (Elt F) → (⟨S1700000x40, .f32⟩ : BufTy).Contents (Elt F)),
    nullary main_cst_15 (constant S_ .f32 0x00000000#32),
    unary main_cst_15 main_v77 (broadcastInDim S100000x40 ![] bcast_S_S100000x40 : (⟨S_, .f32⟩ : BufTy).Contents (Elt F) → (⟨S100000x40, .f32⟩ : BufTy).Contents (Elt F)),
    unary main_v6 main_v78 (broadcastInDim S1700000x1 ![0] bcast_S1700000_S1700000x1_0 : (⟨S1700000, .i32⟩ : BufTy).Contents (Elt F) → (⟨S1700000x1, .i32⟩ : BufTy).Contents (Elt F)),
    ternary main_v77 main_v78 main_v76 main_v79 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    unary main_arg7 main_v80 (broadcastInDim S1x40 ![1] bcast_S40_S1x40_1 : (⟨S40, .f32⟩ : BufTy).Contents (Elt F) → (⟨S1x40, .f32⟩ : BufTy).Contents (Elt F)),
    unary main_v80 main_v81 (broadcastInDim S100000x40 ![0, 1] bcast_S1x40_S100000x40_0_1 : (⟨S1x40, .f32⟩ : BufTy).Contents (Elt F) → (⟨S100000x40, .f32⟩ : BufTy).Contents (Elt F)),
    binary main_v79 main_v81 main_v82 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x40, .f32⟩) main_call3_v0) (broadcastInDim S100000x40 ![] bcast_S_S100000x40),
    TRef.binary (TRef.of (T := ⟨S100000x40, .f32⟩) main_v82) (TRef.of (T := ⟨S100000x40, .f32⟩) main_call3_v0) (TRef.of (T := ⟨S100000x40, .f32⟩) main_v83) maximumf,
    TRef.nullary (TRef.of (T := ⟨S_, .f32⟩) main_call4_cst) (constant S_ .f32 0xFF800000#32),
    TRef.binary (TRef.of (T := ⟨S100000x40, .f32⟩) main_v83) (TRef.of (T := ⟨S_, .f32⟩) main_call4_cst) (TRef.of (T := ⟨S100000, .f32⟩) main_call4_v0) (fun x v => Host.reduce FloatOps.maximumf x v reducesTo_S100000x40_S100000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S100000, .f32⟩) main_call4_v1) (broadcastInDim S100000 ![] bcast_S_S100000),
    TRef.binary (TRef.of (T := ⟨S100000, .f32⟩) main_call4_v1) (TRef.of (T := ⟨S100000, .f32⟩) main_call4_v0) (TRef.of (T := ⟨S100000, .f32⟩) main_call4_v2) maximumf,
    TRef.unary (TRef.of (T := ⟨S100000, .f32⟩) main_call4_v2) (TRef.of (T := ⟨S100000x1, .f32⟩) main_call4_v3) (broadcastInDim S100000x1 ![0] bcast_S100000_S100000x1_0),
    TRef.unary (TRef.of (T := ⟨S100000x1, .f32⟩) main_call4_v3) (TRef.of (T := ⟨S100000x40, .f32⟩) main_call4_v4) (broadcastInDim S100000x40 ![0, 1] bcast_S100000x1_S100000x40_0_1),
    TRef.binary (TRef.of (T := ⟨S100000x40, .f32⟩) main_v83) (TRef.of (T := ⟨S100000x40, .f32⟩) main_call4_v4) (TRef.of (T := ⟨S100000x40, .f32⟩) main_call4_v5) subf,
    TRef.unary (TRef.of (T := ⟨S100000x40, .f32⟩) main_call4_v5) (TRef.of (T := ⟨S100000x40, .f32⟩) main_call4_v6) Host.exp,
    TRef.nullary (TRef.of (T := ⟨S_, .f32⟩) main_call4_cst_1) (constant S_ .f32 0x00000000#32),
    TRef.binary (TRef.of (T := ⟨S100000x40, .f32⟩) main_call4_v6) (TRef.of (T := ⟨S_, .f32⟩) main_call4_cst_1) (TRef.of (T := ⟨S100000, .f32⟩) main_call4_v7) (fun x v => Host.reduceAdd x v reducesTo_S100000x40_S100000_d1 h_S_),
    TRef.unary (TRef.of (T := ⟨S100000, .f32⟩) main_call4_v7) (TRef.of (T := ⟨S100000x1, .f32⟩) main_call4_v8) (broadcastInDim S100000x1 ![0] bcast_S100000_S100000x1_0),
    TRef.unary (TRef.of (T := ⟨S100000x1, .f32⟩) main_call4_v8) (TRef.of (T := ⟨S100000x1, .f32⟩) main_call4_v9) Host.log,
    TRef.unary (TRef.of (T := ⟨S100000x1, .f32⟩) main_call4_v9) (TRef.of (T := ⟨S100000x40, .f32⟩) main_call4_v10) (broadcastInDim S100000x40 ![0, 1] bcast_S100000x1_S100000x40_0_1),
    TRef.binary (TRef.of (T := ⟨S100000x40, .f32⟩) main_call4_v5) (TRef.of (T := ⟨S100000x40, .f32⟩) main_call4_v10) (TRef.of (T := ⟨S100000x40, .f32⟩) main_v84) subf ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The same operations in fifteen pieces -/

abbrev seg0a : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32) ]
abbrev seg0b : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select ]
abbrev seg0c : List (HloOp τ sig (Elt F)) :=
  [ nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)),
    unary main_v31 main_v32 (broadcastInDim S1700000x1 ![0] bcast_S1700000_S1700000x1_0 : (⟨S1700000, .f32⟩ : BufTy).Contents (Elt F) → (⟨S1700000x1, .f32⟩ : BufTy).Contents (Elt F)) ]
abbrev segL1 : List (HloOp τ sig (Elt F)) :=
  [ binary main_arg0 main_arg2 main_v33 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_c_7 (constantI S_ 32 0#32),
    unary main_c_7 main_v34 (broadcastInDim S1700000 ![] bcast_S_S1700000 : (⟨S_, .i32⟩ : BufTy).Contents (Elt F) → (⟨S1700000, .i32⟩ : BufTy).Contents (Elt F)),
    binary main_v3 main_v34 main_v35 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v36 (broadcastInDim S1700000 ![] bcast_S_S1700000 : (⟨S_, .i32⟩ : BufTy).Contents (Elt F) → (⟨S1700000, .i32⟩ : BufTy).Contents (Elt F)),
    binary main_v3 main_v36 main_v37 (addi : (⟨S1700000, .i32⟩ : BufTy).Contents (Elt F) → (⟨S1700000, .i32⟩ : BufTy).Contents (Elt F) → (⟨S1700000, .i32⟩ : BufTy).Contents (Elt F)),
    ternary main_v35 main_v37 main_v3 main_v38 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v38 main_v39 (broadcastInDim S1700000x1 ![0] bcast_S1700000_S1700000x1_0 : (⟨S1700000, .i32⟩ : BufTy).Contents (Elt F) → (⟨S1700000x1, .i32⟩ : BufTy).Contents (Elt F)),
    binary main_v33 main_v39 main_v40 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v32 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v40 main_v41 main_v42 (mulf : (⟨S1700000x128, .f32⟩ : BufTy).Contents (Elt F) → (⟨S1700000x128, .f32⟩ : BufTy).Contents (Elt F) → (⟨S1700000x128, .f32⟩ : BufTy).Contents (Elt F)),
    nullary main_cst_9 (constant S_ .f32 0x00000000#32),
    unary main_cst_9 main_v43 (broadcastInDim S100000x128 ![] bcast_S_S100000x128 : (⟨S_, .f32⟩ : BufTy).Contents (Elt F) → (⟨S100000x128, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)) ]
abbrev segR1 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v48) (TRef.of (T := ⟨S100000x128, .f32⟩) main_call1_v0) (TRef.of (T := ⟨S100000x128, .f32⟩) main_v49) maximumf ]
abbrev segL2 : List (HloOp τ sig (Elt F)) :=
  [ binary main_v49 main_arg4 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_10 (constantI S_ 32 0#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v53 (broadcastInDim S1700000 ![] bcast_S_S1700000 : (⟨S_, .i32⟩ : BufTy).Contents (Elt F) → (⟨S1700000, .i32⟩ : BufTy).Contents (Elt F)),
    binary main_v3 main_v53 main_v54 (addi : (⟨S1700000, .i32⟩ : BufTy).Contents (Elt F) → (⟨S1700000, .i32⟩ : BufTy).Contents (Elt F) → (⟨S1700000, .i32⟩ : BufTy).Contents (Elt F)),
    ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v55 main_v56 (broadcastInDim S1700000x1 ![0] bcast_S1700000_S1700000x1_0 : (⟨S1700000, .i32⟩ : BufTy).Contents (Elt F) → (⟨S1700000x1, .i32⟩ : BufTy).Contents (Elt F)),
    binary main_v50 main_v56 main_v57 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v32 main_v58 (broadcastInDim S1700000x128 ![0, 1] bcast_S1700000x1_S1700000x128_0_1 : (⟨S1700000x1, .f32⟩ : BufTy).Contents (Elt F) → (⟨S1700000x128, .f32⟩ : BufTy).Contents (Elt F)),
    binary main_v57 main_v58 main_v59 (mulf : (⟨S1700000x128, .f32⟩ : BufTy).Contents (Elt F) → (⟨S1700000x128, .f32⟩ : BufTy).Contents (Elt F) → (⟨S1700000x128, .f32⟩ : BufTy).Contents (Elt F)),
    nullary main_cst_12 (constant S_ .f32 0x00000000#32),
    unary main_cst_12 main_v60 (broadcastInDim S100000x128 ![] bcast_S_S100000x128 : (⟨S_, .f32⟩ : BufTy).Contents (Elt F) → (⟨S100000x128, .f32⟩ : BufTy).Contents (Elt F)),
    unary main_v6 main_v61 (broadcastInDim S1700000x1 ![0] bcast_S1700000_S1700000x1_0 : (⟨S1700000, .i32⟩ : BufTy).Contents (Elt F) → (⟨S1700000x1, .i32⟩ : BufTy).Contents (Elt F)),
    ternary main_v60 main_v61 main_v59 main_v62 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v63 (broadcastInDim S1x128 ![1] bcast_S128_S1x128_1 : (⟨S128, .f32⟩ : BufTy).Contents (Elt F) → (⟨S1x128, .f32⟩ : BufTy).Contents (Elt F)),
    unary main_v63 main_v64 (broadcastInDim S100000x128 ![0, 1] bcast_S1x128_S100000x128_0_1 : (⟨S1x128, .f32⟩ : BufTy).Contents (Elt F) → (⟨S100000x128, .f32⟩ : BufTy).Contents (Elt F)),
    binary main_v62 main_v64 main_v65 (addf : (⟨S100000x128, .f32⟩ : BufTy).Contents (Elt F) → (⟨S100000x128, .f32⟩ : BufTy).Contents (Elt F) → (⟨S100000x128, .f32⟩ : BufTy).Contents (Elt F)) ]
abbrev segR2 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v65) (TRef.of (T := ⟨S100000x128, .f32⟩) main_call2_v0) (TRef.of (T := ⟨S100000x128, .f32⟩) main_v66) maximumf ]
abbrev segL3 : List (HloOp τ sig (Elt F)) :=
  [ binary main_v66 main_arg6 main_v67 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    nullary main_c_13 (constantI S_ 32 0#32),
    unary main_c_13 main_v68 (broadcastInDim S1700000 ![] bcast_S_S1700000 : (⟨S_, .i32⟩ : BufTy).Contents (Elt F) → (⟨S1700000, .i32⟩ : BufTy).Contents (Elt F)),
    binary main_v3 main_v68 main_v69 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v70 (broadcastInDim S1700000 ![] bcast_S_S1700000 : (⟨S_, .i32⟩ : BufTy).Contents (Elt F) → (⟨S1700000, .i32⟩ : BufTy).Contents (Elt F)),
    binary main_v3 main_v70 main_v71 (addi : (⟨S1700000, .i32⟩ : BufTy).Contents (Elt F) → (⟨S1700000, .i32⟩ : BufTy).Contents (Elt F) → (⟨S1700000, .i32⟩ : BufTy).Contents (Elt F)),
    ternary main_v69 main_v71 main_v3 main_v72 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v72 main_v73 (broadcastInDim S1700000x1 ![0] bcast_S1700000_S1700000x1_0 : (⟨S1700000, .i32⟩ : BufTy).Contents (Elt F) → (⟨S1700000x1, .i32⟩ : BufTy).Contents (Elt F)),
    binary main_v67 main_v73 main_v74 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v32 main_v75 (broadcastInDim S1700000x40 ![0, 1] bcast_S1700000x1_S1700000x40_0_1 : (⟨S1700000x1, .f32⟩ : BufTy).Contents (Elt F) → (⟨S1700000x40, .f32⟩ : BufTy).Contents (Elt F)),
    binary main_v74 main_v75 main_v76 (mulf : (⟨S1700000x40, .f32⟩ : BufTy).Contents (Elt F) → (⟨S1700000x40, .f32⟩ : BufTy).Contents (Elt F) → (⟨S1700000x40, .f32⟩ : BufTy).Contents (Elt F)),
    nullary main_cst_15 (constant S_ .f32 0x00000000#32),
    unary main_cst_15 main_v77 (broadcastInDim S100000x40 ![] bcast_S_S100000x40 : (⟨S_, .f32⟩ : BufTy).Contents (Elt F) → (⟨S100000x40, .f32⟩ : BufTy).Contents (Elt F)),
    unary main_v6 main_v78 (broadcastInDim S1700000x1 ![0] bcast_S1700000_S1700000x1_0 : (⟨S1700000, .i32⟩ : BufTy).Contents (Elt F) → (⟨S1700000x1, .i32⟩ : BufTy).Contents (Elt F)),
    ternary main_v77 main_v78 main_v76 main_v79 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    unary main_arg7 main_v80 (broadcastInDim S1x40 ![1] bcast_S40_S1x40_1 : (⟨S40, .f32⟩ : BufTy).Contents (Elt F) → (⟨S1x40, .f32⟩ : BufTy).Contents (Elt F)),
    unary main_v80 main_v81 (broadcastInDim S100000x40 ![0, 1] bcast_S1x40_S100000x40_0_1 : (⟨S1x40, .f32⟩ : BufTy).Contents (Elt F) → (⟨S100000x40, .f32⟩ : BufTy).Contents (Elt F)),
    binary main_v79 main_v81 main_v82 (addf : (⟨S100000x40, .f32⟩ : BufTy).Contents (Elt F) → (⟨S100000x40, .f32⟩ : BufTy).Contents (Elt F) → (⟨S100000x40, .f32⟩ : BufTy).Contents (Elt F)) ]
abbrev segR3 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S100000x40, .f32⟩) main_call3_v0) (broadcastInDim S100000x40 ![] bcast_S_S100000x40),
    TRef.binary (TRef.of (T := ⟨S100000x40, .f32⟩) main_v82) (TRef.of (T := ⟨S100000x40, .f32⟩) main_call3_v0) (TRef.of (T := ⟨S100000x40, .f32⟩) main_v83) maximumf ]
abbrev segF1 : List (HloOp τ sig (Elt F)) :=
  [ TRef.nullary (TRef.of (T := ⟨S_, .f32⟩) main_call4_cst) (constant S_ .f32 0xFF800000#32),
    TRef.binary (TRef.of (T := ⟨S100000x40, .f32⟩) main_v83) (TRef.of (T := ⟨S_, .f32⟩) main_call4_cst) (TRef.of (T := ⟨S100000, .f32⟩) main_call4_v0) (fun x v => Host.reduce FloatOps.maximumf x v reducesTo_S100000x40_S100000_d1 h_S_) ]
abbrev segF2 : List (HloOp τ sig (Elt F)) :=
  [ TRef.nullary (TRef.of (T := ⟨S_, .f32⟩) main_call4_cst_0) (constant S_ .f32 0xFF800000#32),
    TRef.unary (TRef.of (T := ⟨S_, .f32⟩) main_call4_cst_0) (TRef.of (T := ⟨S100000, .f32⟩) main_call4_v1) (broadcastInDim S100000 ![] bcast_S_S100000),
    TRef.binary (TRef.of (T := ⟨S100000, .f32⟩) main_call4_v1) (TRef.of (T := ⟨S100000, .f32⟩) main_call4_v0) (TRef.of (T := ⟨S100000, .f32⟩) main_call4_v2) maximumf ]
abbrev segF3 : List (HloOp τ sig (Elt F)) :=
  [ TRef.unary (TRef.of (T := ⟨S100000, .f32⟩) main_call4_v2) (TRef.of (T := ⟨S100000x1, .f32⟩) main_call4_v3) (broadcastInDim S100000x1 ![0] bcast_S100000_S100000x1_0),
    TRef.unary (TRef.of (T := ⟨S100000x1, .f32⟩) main_call4_v3) (TRef.of (T := ⟨S100000x40, .f32⟩) main_call4_v4) (broadcastInDim S100000x40 ![0, 1] bcast_S100000x1_S100000x40_0_1),
    TRef.binary (TRef.of (T := ⟨S100000x40, .f32⟩) main_v83) (TRef.of (T := ⟨S100000x40, .f32⟩) main_call4_v4) (TRef.of (T := ⟨S100000x40, .f32⟩) main_call4_v5) subf ]
abbrev segF4 : List (HloOp τ sig (Elt F)) :=
  [ TRef.unary (TRef.of (T := ⟨S100000x40, .f32⟩) main_call4_v5) (TRef.of (T := ⟨S100000x40, .f32⟩) main_call4_v6) Host.exp,
    TRef.nullary (TRef.of (T := ⟨S_, .f32⟩) main_call4_cst_1) (constant S_ .f32 0x00000000#32),
    TRef.binary (TRef.of (T := ⟨S100000x40, .f32⟩) main_call4_v6) (TRef.of (T := ⟨S_, .f32⟩) main_call4_cst_1) (TRef.of (T := ⟨S100000, .f32⟩) main_call4_v7) (fun x v => Host.reduceAdd x v reducesTo_S100000x40_S100000_d1 h_S_) ]
abbrev segF5 : List (HloOp τ sig (Elt F)) :=
  [ TRef.unary (TRef.of (T := ⟨S100000, .f32⟩) main_call4_v7) (TRef.of (T := ⟨S100000x1, .f32⟩) main_call4_v8) (broadcastInDim S100000x1 ![0] bcast_S100000_S100000x1_0),
    TRef.unary (TRef.of (T := ⟨S100000x1, .f32⟩) main_call4_v8) (TRef.of (T := ⟨S100000x1, .f32⟩) main_call4_v9) Host.log ]
abbrev segF6 : List (HloOp τ sig (Elt F)) :=
  [ TRef.unary (TRef.of (T := ⟨S100000x1, .f32⟩) main_call4_v9) (TRef.of (T := ⟨S100000x40, .f32⟩) main_call4_v10) (broadcastInDim S100000x40 ![0, 1] bcast_S100000x1_S100000x40_0_1),
    TRef.binary (TRef.of (T := ⟨S100000x40, .f32⟩) main_call4_v5) (TRef.of (T := ⟨S100000x40, .f32⟩) main_call4_v10) (TRef.of (T := ⟨S100000x40, .f32⟩) main_v84) subf ]

set_option maxHeartbeats 4000000 in
theorem ops_split : (ops : List (HloOp τ sig (Elt F))) = seg0a ++ (seg0b ++ (seg0c ++ (segL1 ++ (segR1 ++ (segL2 ++ (segR2 ++ (segL3 ++ (segR3 ++ (segF1 ++ (segF2 ++ (segF3 ++ (segF4 ++ (segF5 ++ (segF6)))))))))))))) := rfl

/-- Running two lines of operations one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

end Ops

end Cert.ReferenceIdeal.RefValue

end
-- ==== Proof.RefCarry.lean ====
/-
  The reference's buffers after each of the fifteen pieces of its line of operations, and which buffers each piece leaves
  alone: the arguments are never written, the sources, targets and edge weights are written once, before the layers, and
  within the log-softmax the last layer's output and its shifted copy are read again two pieces after they are written.
-/
import proofs.«131590_j68728066670865_1_alg».proof.Proof.RefOps
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ)

/-- The buffers of core `c` at launch and after each piece. -/
def U0 (c : Dev nD) : Valuation τ sig (Elt Ideal) := launchContents m c
def U1 (c : Dev nD) : Valuation τ sig (Elt Ideal) := after seg0a (U0 m c)
def U2 (c : Dev nD) : Valuation τ sig (Elt Ideal) := after seg0b (U1 m c)
def U3 (c : Dev nD) : Valuation τ sig (Elt Ideal) := after seg0c (U2 m c)
def U4 (c : Dev nD) : Valuation τ sig (Elt Ideal) := after segL1 (U3 m c)
def U5 (c : Dev nD) : Valuation τ sig (Elt Ideal) := after segR1 (U4 m c)
def U6 (c : Dev nD) : Valuation τ sig (Elt Ideal) := after segL2 (U5 m c)
def U7 (c : Dev nD) : Valuation τ sig (Elt Ideal) := after segR2 (U6 m c)
def U8 (c : Dev nD) : Valuation τ sig (Elt Ideal) := after segL3 (U7 m c)
def U9 (c : Dev nD) : Valuation τ sig (Elt Ideal) := after segR3 (U8 m c)
def U10 (c : Dev nD) : Valuation τ sig (Elt Ideal) := after segF1 (U9 m c)
def U11 (c : Dev nD) : Valuation τ sig (Elt Ideal) := after segF2 (U10 m c)
def U12 (c : Dev nD) : Valuation τ sig (Elt Ideal) := after segF3 (U11 m c)
def U13 (c : Dev nD) : Valuation τ sig (Elt Ideal) := after segF4 (U12 m c)
def U14 (c : Dev nD) : Valuation τ sig (Elt Ideal) := after segF5 (U13 m c)
def U15 (c : Dev nD) : Valuation τ sig (Elt Ideal) := after segF6 (U14 m c)

theorem after_ops (c : Dev nD) : after ops (launchContents m c) = U15 m c := by
  rw [ops_split]
  simp only [after_append]
  rfl

/-- A piece leaves a buffer it does not write as it found it. -/
macro "skip_seg " seg:ident : tactic => `(tactic|
  exact StableHlo.after_of_forall_not_mem _ _ (List.forall_iff_forall_mem.mp (by
    simp only [$seg:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## The arguments, from where they are read (and from the end) back to the launch -/

theorem main_arg0_U3_U0 (c : Dev nD) : U3 m c (Proc.devRef .tc main_arg0) = U0 m c (Proc.devRef .tc main_arg0) :=
  calc U3 m c (Proc.devRef .tc main_arg0)
    _ = U2 m c (Proc.devRef .tc main_arg0) := by skip_seg seg0c
    _ = U1 m c (Proc.devRef .tc main_arg0) := by skip_seg seg0b
    _ = U0 m c (Proc.devRef .tc main_arg0) := by skip_seg seg0a

theorem main_arg2_U3_U0 (c : Dev nD) : U3 m c (Proc.devRef .tc main_arg2) = U0 m c (Proc.devRef .tc main_arg2) :=
  calc U3 m c (Proc.devRef .tc main_arg2)
    _ = U2 m c (Proc.devRef .tc main_arg2) := by skip_seg seg0c
    _ = U1 m c (Proc.devRef .tc main_arg2) := by skip_seg seg0b
    _ = U0 m c (Proc.devRef .tc main_arg2) := by skip_seg seg0a

theorem main_arg3_U3_U0 (c : Dev nD) : U3 m c (Proc.devRef .tc main_arg3) = U0 m c (Proc.devRef .tc main_arg3) :=
  calc U3 m c (Proc.devRef .tc main_arg3)
    _ = U2 m c (Proc.devRef .tc main_arg3) := by skip_seg seg0c
    _ = U1 m c (Proc.devRef .tc main_arg3) := by skip_seg seg0b
    _ = U0 m c (Proc.devRef .tc main_arg3) := by skip_seg seg0a

theorem main_arg4_U5_U0 (c : Dev nD) : U5 m c (Proc.devRef .tc main_arg4) = U0 m c (Proc.devRef .tc main_arg4) :=
  calc U5 m c (Proc.devRef .tc main_arg4)
    _ = U4 m c (Proc.devRef .tc main_arg4) := by skip_seg segR1
    _ = U3 m c (Proc.devRef .tc main_arg4) := by skip_seg segL1
    _ = U2 m c (Proc.devRef .tc main_arg4) := by skip_seg seg0c
    _ = U1 m c (Proc.devRef .tc main_arg4) := by skip_seg seg0b
    _ = U0 m c (Proc.devRef .tc main_arg4) := by skip_seg seg0a

theorem main_arg5_U5_U0 (c : Dev nD) : U5 m c (Proc.devRef .tc main_arg5) = U0 m c (Proc.devRef .tc main_arg5) :=
  calc U5 m c (Proc.devRef .tc main_arg5)
    _ = U4 m c (Proc.devRef .tc main_arg5) := by skip_seg segR1
    _ = U3 m c (Proc.devRef .tc main_arg5) := by skip_seg segL1
    _ = U2 m c (Proc.devRef .tc main_arg5) := by skip_seg seg0c
    _ = U1 m c (Proc.devRef .tc main_arg5) := by skip_seg seg0b
    _ = U0 m c (Proc.devRef .tc main_arg5) := by skip_seg seg0a

theorem main_arg6_U7_U0 (c : Dev nD) : U7 m c (Proc.devRef .tc main_arg6) = U0 m c (Proc.devRef .tc main_arg6) :=
  calc U7 m c (Proc.devRef .tc main_arg6)
    _ = U6 m c (Proc.devRef .tc main_arg6) := by skip_seg segR2
    _ = U5 m c (Proc.devRef .tc main_arg6) := by skip_seg segL2
    _ = U4 m c (Proc.devRef .tc main_arg6) := by skip_seg segR1
    _ = U3 m c (Proc.devRef .tc main_arg6) := by skip_seg segL1
    _ = U2 m c (Proc.devRef .tc main_arg6) := by skip_seg seg0c
    _ = U1 m c (Proc.devRef .tc main_arg6) := by skip_seg seg0b
    _ = U0 m c (Proc.devRef .tc main_arg6) := by skip_seg seg0a

theorem main_arg7_U7_U0 (c : Dev nD) : U7 m c (Proc.devRef .tc main_arg7) = U0 m c (Proc.devRef .tc main_arg7) :=
  calc U7 m c (Proc.devRef .tc main_arg7)
    _ = U6 m c (Proc.devRef .tc main_arg7) := by skip_seg segR2
    _ = U5 m c (Proc.devRef .tc main_arg7) := by skip_seg segL2
    _ = U4 m c (Proc.devRef .tc main_arg7) := by skip_seg segR1
    _ = U3 m c (Proc.devRef .tc main_arg7) := by skip_seg segL1
    _ = U2 m c (Proc.devRef .tc main_arg7) := by skip_seg seg0c
    _ = U1 m c (Proc.devRef .tc main_arg7) := by skip_seg seg0b
    _ = U0 m c (Proc.devRef .tc main_arg7) := by skip_seg seg0a

theorem main_arg0_U15_U0 (c : Dev nD) : U15 m c (Proc.devRef .tc main_arg0) = U0 m c (Proc.devRef .tc main_arg0) :=
  calc U15 m c (Proc.devRef .tc main_arg0)
    _ = U14 m c (Proc.devRef .tc main_arg0) := by skip_seg segF6
    _ = U13 m c (Proc.devRef .tc main_arg0) := by skip_seg segF5
    _ = U12 m c (Proc.devRef .tc main_arg0) := by skip_seg segF4
    _ = U11 m c (Proc.devRef .tc main_arg0) := by skip_seg segF3
    _ = U10 m c (Proc.devRef .tc main_arg0) := by skip_seg segF2
    _ = U9 m c (Proc.devRef .tc main_arg0) := by skip_seg segF1
    _ = U8 m c (Proc.devRef .tc main_arg0) := by skip_seg segR3
    _ = U7 m c (Proc.devRef .tc main_arg0) := by skip_seg segL3
    _ = U6 m c (Proc.devRef .tc main_arg0) := by skip_seg segR2
    _ = U5 m c (Proc.devRef .tc main_arg0) := by skip_seg segL2
    _ = U4 m c (Proc.devRef .tc main_arg0) := by skip_seg segR1
    _ = U3 m c (Proc.devRef .tc main_arg0) := by skip_seg segL1
    _ = U2 m c (Proc.devRef .tc main_arg0) := by skip_seg seg0c
    _ = U1 m c (Proc.devRef .tc main_arg0) := by skip_seg seg0b
    _ = U0 m c (Proc.devRef .tc main_arg0) := by skip_seg seg0a

theorem main_arg1_U15_U0 (c : Dev nD) : U15 m c (Proc.devRef .tc main_arg1) = U0 m c (Proc.devRef .tc main_arg1) :=
  calc U15 m c (Proc.devRef .tc main_arg1)
    _ = U14 m c (Proc.devRef .tc main_arg1) := by skip_seg segF6
    _ = U13 m c (Proc.devRef .tc main_arg1) := by skip_seg segF5
    _ = U12 m c (Proc.devRef .tc main_arg1) := by skip_seg segF4
    _ = U11 m c (Proc.devRef .tc main_arg1) := by skip_seg segF3
    _ = U10 m c (Proc.devRef .tc main_arg1) := by skip_seg segF2
    _ = U9 m c (Proc.devRef .tc main_arg1) := by skip_seg segF1
    _ = U8 m c (Proc.devRef .tc main_arg1) := by skip_seg segR3
    _ = U7 m c (Proc.devRef .tc main_arg1) := by skip_seg segL3
    _ = U6 m c (Proc.devRef .tc main_arg1) := by skip_seg segR2
    _ = U5 m c (Proc.devRef .tc main_arg1) := by skip_seg segL2
    _ = U4 m c (Proc.devRef .tc main_arg1) := by skip_seg segR1
    _ = U3 m c (Proc.devRef .tc main_arg1) := by skip_seg segL1
    _ = U2 m c (Proc.devRef .tc main_arg1) := by skip_seg seg0c
    _ = U1 m c (Proc.devRef .tc main_arg1) := by skip_seg seg0b
    _ = U0 m c (Proc.devRef .tc main_arg1) := by skip_seg seg0a

theorem main_arg2_U15_U0 (c : Dev nD) : U15 m c (Proc.devRef .tc main_arg2) = U0 m c (Proc.devRef .tc main_arg2) :=
  calc U15 m c (Proc.devRef .tc main_arg2)
    _ = U14 m c (Proc.devRef .tc main_arg2) := by skip_seg segF6
    _ = U13 m c (Proc.devRef .tc main_arg2) := by skip_seg segF5
    _ = U12 m c (Proc.devRef .tc main_arg2) := by skip_seg segF4
    _ = U11 m c (Proc.devRef .tc main_arg2) := by skip_seg segF3
    _ = U10 m c (Proc.devRef .tc main_arg2) := by skip_seg segF2
    _ = U9 m c (Proc.devRef .tc main_arg2) := by skip_seg segF1
    _ = U8 m c (Proc.devRef .tc main_arg2) := by skip_seg segR3
    _ = U7 m c (Proc.devRef .tc main_arg2) := by skip_seg segL3
    _ = U6 m c (Proc.devRef .tc main_arg2) := by skip_seg segR2
    _ = U5 m c (Proc.devRef .tc main_arg2) := by skip_seg segL2
    _ = U4 m c (Proc.devRef .tc main_arg2) := by skip_seg segR1
    _ = U3 m c (Proc.devRef .tc main_arg2) := by skip_seg segL1
    _ = U2 m c (Proc.devRef .tc main_arg2) := by skip_seg seg0c
    _ = U1 m c (Proc.devRef .tc main_arg2) := by skip_seg seg0b
    _ = U0 m c (Proc.devRef .tc main_arg2) := by skip_seg seg0a

theorem main_arg3_U15_U0 (c : Dev nD) : U15 m c (Proc.devRef .tc main_arg3) = U0 m c (Proc.devRef .tc main_arg3) :=
  calc U15 m c (Proc.devRef .tc main_arg3)
    _ = U14 m c (Proc.devRef .tc main_arg3) := by skip_seg segF6
    _ = U13 m c (Proc.devRef .tc main_arg3) := by skip_seg segF5
    _ = U12 m c (Proc.devRef .tc main_arg3) := by skip_seg segF4
    _ = U11 m c (Proc.devRef .tc main_arg3) := by skip_seg segF3
    _ = U10 m c (Proc.devRef .tc main_arg3) := by skip_seg segF2
    _ = U9 m c (Proc.devRef .tc main_arg3) := by skip_seg segF1
    _ = U8 m c (Proc.devRef .tc main_arg3) := by skip_seg segR3
    _ = U7 m c (Proc.devRef .tc main_arg3) := by skip_seg segL3
    _ = U6 m c (Proc.devRef .tc main_arg3) := by skip_seg segR2
    _ = U5 m c (Proc.devRef .tc main_arg3) := by skip_seg segL2
    _ = U4 m c (Proc.devRef .tc main_arg3) := by skip_seg segR1
    _ = U3 m c (Proc.devRef .tc main_arg3) := by skip_seg segL1
    _ = U2 m c (Proc.devRef .tc main_arg3) := by skip_seg seg0c
    _ = U1 m c (Proc.devRef .tc main_arg3) := by skip_seg seg0b
    _ = U0 m c (Proc.devRef .tc main_arg3) := by skip_seg seg0a

theorem main_arg4_U15_U0 (c : Dev nD) : U15 m c (Proc.devRef .tc main_arg4) = U0 m c (Proc.devRef .tc main_arg4) :=
  calc U15 m c (Proc.devRef .tc main_arg4)
    _ = U14 m c (Proc.devRef .tc main_arg4) := by skip_seg segF6
    _ = U13 m c (Proc.devRef .tc main_arg4) := by skip_seg segF5
    _ = U12 m c (Proc.devRef .tc main_arg4) := by skip_seg segF4
    _ = U11 m c (Proc.devRef .tc main_arg4) := by skip_seg segF3
    _ = U10 m c (Proc.devRef .tc main_arg4) := by skip_seg segF2
    _ = U9 m c (Proc.devRef .tc main_arg4) := by skip_seg segF1
    _ = U8 m c (Proc.devRef .tc main_arg4) := by skip_seg segR3
    _ = U7 m c (Proc.devRef .tc main_arg4) := by skip_seg segL3
    _ = U6 m c (Proc.devRef .tc main_arg4) := by skip_seg segR2
    _ = U5 m c (Proc.devRef .tc main_arg4) := by skip_seg segL2
    _ = U4 m c (Proc.devRef .tc main_arg4) := by skip_seg segR1
    _ = U3 m c (Proc.devRef .tc main_arg4) := by skip_seg segL1
    _ = U2 m c (Proc.devRef .tc main_arg4) := by skip_seg seg0c
    _ = U1 m c (Proc.devRef .tc main_arg4) := by skip_seg seg0b
    _ = U0 m c (Proc.devRef .tc main_arg4) := by skip_seg seg0a

theorem main_arg5_U15_U0 (c : Dev nD) : U15 m c (Proc.devRef .tc main_arg5) = U0 m c (Proc.devRef .tc main_arg5) :=
  calc U15 m c (Proc.devRef .tc main_arg5)
    _ = U14 m c (Proc.devRef .tc main_arg5) := by skip_seg segF6
    _ = U13 m c (Proc.devRef .tc main_arg5) := by skip_seg segF5
    _ = U12 m c (Proc.devRef .tc main_arg5) := by skip_seg segF4
    _ = U11 m c (Proc.devRef .tc main_arg5) := by skip_seg segF3
    _ = U10 m c (Proc.devRef .tc main_arg5) := by skip_seg segF2
    _ = U9 m c (Proc.devRef .tc main_arg5) := by skip_seg segF1
    _ = U8 m c (Proc.devRef .tc main_arg5) := by skip_seg segR3
    _ = U7 m c (Proc.devRef .tc main_arg5) := by skip_seg segL3
    _ = U6 m c (Proc.devRef .tc main_arg5) := by skip_seg segR2
    _ = U5 m c (Proc.devRef .tc main_arg5) := by skip_seg segL2
    _ = U4 m c (Proc.devRef .tc main_arg5) := by skip_seg segR1
    _ = U3 m c (Proc.devRef .tc main_arg5) := by skip_seg segL1
    _ = U2 m c (Proc.devRef .tc main_arg5) := by skip_seg seg0c
    _ = U1 m c (Proc.devRef .tc main_arg5) := by skip_seg seg0b
    _ = U0 m c (Proc.devRef .tc main_arg5) := by skip_seg seg0a

theorem main_arg6_U15_U0 (c : Dev nD) : U15 m c (Proc.devRef .tc main_arg6) = U0 m c (Proc.devRef .tc main_arg6) :=
  calc U15 m c (Proc.devRef .tc main_arg6)
    _ = U14 m c (Proc.devRef .tc main_arg6) := by skip_seg segF6
    _ = U13 m c (Proc.devRef .tc main_arg6) := by skip_seg segF5
    _ = U12 m c (Proc.devRef .tc main_arg6) := by skip_seg segF4
    _ = U11 m c (Proc.devRef .tc main_arg6) := by skip_seg segF3
    _ = U10 m c (Proc.devRef .tc main_arg6) := by skip_seg segF2
    _ = U9 m c (Proc.devRef .tc main_arg6) := by skip_seg segF1
    _ = U8 m c (Proc.devRef .tc main_arg6) := by skip_seg segR3
    _ = U7 m c (Proc.devRef .tc main_arg6) := by skip_seg segL3
    _ = U6 m c (Proc.devRef .tc main_arg6) := by skip_seg segR2
    _ = U5 m c (Proc.devRef .tc main_arg6) := by skip_seg segL2
    _ = U4 m c (Proc.devRef .tc main_arg6) := by skip_seg segR1
    _ = U3 m c (Proc.devRef .tc main_arg6) := by skip_seg segL1
    _ = U2 m c (Proc.devRef .tc main_arg6) := by skip_seg seg0c
    _ = U1 m c (Proc.devRef .tc main_arg6) := by skip_seg seg0b
    _ = U0 m c (Proc.devRef .tc main_arg6) := by skip_seg seg0a

theorem main_arg7_U15_U0 (c : Dev nD) : U15 m c (Proc.devRef .tc main_arg7) = U0 m c (Proc.devRef .tc main_arg7) :=
  calc U15 m c (Proc.devRef .tc main_arg7)
    _ = U14 m c (Proc.devRef .tc main_arg7) := by skip_seg segF6
    _ = U13 m c (Proc.devRef .tc main_arg7) := by skip_seg segF5
    _ = U12 m c (Proc.devRef .tc main_arg7) := by skip_seg segF4
    _ = U11 m c (Proc.devRef .tc main_arg7) := by skip_seg segF3
    _ = U10 m c (Proc.devRef .tc main_arg7) := by skip_seg segF2
    _ = U9 m c (Proc.devRef .tc main_arg7) := by skip_seg segF1
    _ = U8 m c (Proc.devRef .tc main_arg7) := by skip_seg segR3
    _ = U7 m c (Proc.devRef .tc main_arg7) := by skip_seg segL3
    _ = U6 m c (Proc.devRef .tc main_arg7) := by skip_seg segR2
    _ = U5 m c (Proc.devRef .tc main_arg7) := by skip_seg segL2
    _ = U4 m c (Proc.devRef .tc main_arg7) := by skip_seg segR1
    _ = U3 m c (Proc.devRef .tc main_arg7) := by skip_seg segL1
    _ = U2 m c (Proc.devRef .tc main_arg7) := by skip_seg seg0c
    _ = U1 m c (Proc.devRef .tc main_arg7) := by skip_seg seg0b
    _ = U0 m c (Proc.devRef .tc main_arg7) := by skip_seg seg0a

/-! ## Sources, targets and weights, from the layers back to where they were computed -/

theorem main_v3_U2_U1 (c : Dev nD) : U2 m c (Proc.devRef .tc main_v3) = U1 m c (Proc.devRef .tc main_v3) :=
  calc U2 m c (Proc.devRef .tc main_v3)
    _ = U1 m c (Proc.devRef .tc main_v3) := by skip_seg seg0b

theorem main_v6_U2_U1 (c : Dev nD) : U2 m c (Proc.devRef .tc main_v6) = U1 m c (Proc.devRef .tc main_v6) :=
  calc U2 m c (Proc.devRef .tc main_v6)
    _ = U1 m c (Proc.devRef .tc main_v6) := by skip_seg seg0b

theorem main_v3_U3_U1 (c : Dev nD) : U3 m c (Proc.devRef .tc main_v3) = U1 m c (Proc.devRef .tc main_v3) :=
  calc U3 m c (Proc.devRef .tc main_v3)
    _ = U2 m c (Proc.devRef .tc main_v3) := by skip_seg seg0c
    _ = U1 m c (Proc.devRef .tc main_v3) := by skip_seg seg0b

theorem main_v6_U3_U1 (c : Dev nD) : U3 m c (Proc.devRef .tc main_v6) = U1 m c (Proc.devRef .tc main_v6) :=
  calc U3 m c (Proc.devRef .tc main_v6)
    _ = U2 m c (Proc.devRef .tc main_v6) := by skip_seg seg0c
    _ = U1 m c (Proc.devRef .tc main_v6) := by skip_seg seg0b

theorem main_v3_U5_U3 (c : Dev nD) : U5 m c (Proc.devRef .tc main_v3) = U3 m c (Proc.devRef .tc main_v3) :=
  calc U5 m c (Proc.devRef .tc main_v3)
    _ = U4 m c (Proc.devRef .tc main_v3) := by skip_seg segR1
    _ = U3 m c (Proc.devRef .tc main_v3) := by skip_seg segL1

theorem main_v3_U7_U5 (c : Dev nD) : U7 m c (Proc.devRef .tc main_v3) = U5 m c (Proc.devRef .tc main_v3) :=
  calc U7 m c (Proc.devRef .tc main_v3)
    _ = U6 m c (Proc.devRef .tc main_v3) := by skip_seg segR2
    _ = U5 m c (Proc.devRef .tc main_v3) := by skip_seg segL2

theorem main_v6_U5_U3 (c : Dev nD) : U5 m c (Proc.devRef .tc main_v6) = U3 m c (Proc.devRef .tc main_v6) :=
  calc U5 m c (Proc.devRef .tc main_v6)
    _ = U4 m c (Proc.devRef .tc main_v6) := by skip_seg segR1
    _ = U3 m c (Proc.devRef .tc main_v6) := by skip_seg segL1

theorem main_v6_U7_U5 (c : Dev nD) : U7 m c (Proc.devRef .tc main_v6) = U5 m c (Proc.devRef .tc main_v6) :=
  calc U7 m c (Proc.devRef .tc main_v6)
    _ = U6 m c (Proc.devRef .tc main_v6) := by skip_seg segR2
    _ = U5 m c (Proc.devRef .tc main_v6) := by skip_seg segL2

theorem main_v32_U5_U3 (c : Dev nD) : U5 m c (Proc.devRef .tc main_v32) = U3 m c (Proc.devRef .tc main_v32) :=
  calc U5 m c (Proc.devRef .tc main_v32)
    _ = U4 m c (Proc.devRef .tc main_v32) := by skip_seg segR1
    _ = U3 m c (Proc.devRef .tc main_v32) := by skip_seg segL1

theorem main_v32_U7_U5 (c : Dev nD) : U7 m c (Proc.devRef .tc main_v32) = U5 m c (Proc.devRef .tc main_v32) :=
  calc U7 m c (Proc.devRef .tc main_v32)
    _ = U6 m c (Proc.devRef .tc main_v32) := by skip_seg segR2
    _ = U5 m c (Proc.devRef .tc main_v32) := by skip_seg segL2

/-! ## Within the log-softmax -/

theorem main_v83_U11_U9 (c : Dev nD) : U11 m c (Proc.devRef .tc main_v83) = U9 m c (Proc.devRef .tc main_v83) :=
  calc U11 m c (Proc.devRef .tc main_v83)
    _ = U10 m c (Proc.devRef .tc main_v83) := by skip_seg segF2
    _ = U9 m c (Proc.devRef .tc main_v83) := by skip_seg segF1

theorem main_call4_v5_U14_U12 (c : Dev nD) : U14 m c (Proc.devRef .tc main_call4_v5) = U12 m c (Proc.devRef .tc main_call4_v5) :=
  calc U14 m c (Proc.devRef .tc main_call4_v5)
    _ = U13 m c (Proc.devRef .tc main_call4_v5) := by skip_seg segF5
    _ = U12 m c (Proc.devRef .tc main_call4_v5) := by skip_seg segF4

end Cert.ReferenceIdeal.RefValue

end
-- ==== Proof.RefStagesA.lean ====
/-
  The reference's buffers before its first layer, read as stage functions of the edge list: the message sources and
  targets (the edge list's two rows, each followed by the self-loops), the degrees and their inverse square roots (zero
  where a degree is not positive), and the edge weights (the product of the two endpoints' inverse square-root degrees).
-/
import proofs.«131590_j68728066670865_1_alg».proof.Proof.RefCarry
import proofs.«131590_j68728066670865_1_alg».proof.Proof.RefRead

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ)

set_option maxHeartbeats 4000000 in
theorem src_U1 (c : Dev nD) : U1 m c (Proc.devRef .tc main_v3) = Cert.ReferenceIdeal.ReadP.val_main_v3 (F := Ideal) (m ((c.tc : Thread nD τ).loc main_arg1)) := by
  show StableHlo.after seg0a (launchContents m c) (Proc.devRef .tc main_v3) = _
  after_results
  rfl
set_option maxHeartbeats 4000000 in
theorem dst_U1 (c : Dev nD) : U1 m c (Proc.devRef .tc main_v6) = Cert.ReferenceIdeal.ReadP.val_main_v6 (F := Ideal) (m ((c.tc : Thread nD τ).loc main_arg1)) := by
  show StableHlo.after seg0a (launchContents m c) (Proc.devRef .tc main_v6) = _
  after_results
  rfl
set_option maxHeartbeats 4000000 in
theorem degPos_U1 (c : Dev nD) : U1 m c (Proc.devRef .tc main_v12) = Cert.ReferenceIdeal.ReadP.val_main_v12 (F := Ideal) (m ((c.tc : Thread nD τ).loc main_arg1)) := by
  show StableHlo.after seg0a (launchContents m c) (Proc.devRef .tc main_v12) = _
  after_results
  rfl
set_option maxHeartbeats 4000000 in
theorem degRsqrt_U1 (c : Dev nD) : U1 m c (Proc.devRef .tc main_v15) = Cert.ReferenceIdeal.ReadP.val_main_v15 (F := Ideal) (m ((c.tc : Thread nD τ).loc main_arg1)) := by
  show StableHlo.after seg0a (launchContents m c) (Proc.devRef .tc main_v15) = _
  after_results
  rfl
theorem zero_U1 (c : Dev nD) : U1 m c (Proc.devRef .tc main_cst_3) = Cert.ReferenceIdeal.ReadP.val_main_cst_3 (F := Ideal) := by
  show StableHlo.after seg0a (launchContents m c) (Proc.devRef .tc main_cst_3) = _
  after_results
  rfl

/-- The inverse square roots of the degrees, zero where the degree is not positive. -/
theorem dinv_U2 (c : Dev nD) : U2 m c (Proc.devRef .tc main_v16) = Cert.ReferenceIdeal.ReadP.val_main_v16 (F := Ideal) (m ((c.tc : Thread nD τ).loc main_arg1)) := by
  have h12 := degPos_U1 m c
  have h15 := degRsqrt_U1 m c
  have hz := zero_U1 m c
  show StableHlo.after seg0b (U1 m c) (Proc.devRef .tc main_v16) = _
  generalize U1 m c = U at h12 h15 hz ⊢
  after_results
  show select (U (Proc.devRef .tc main_v12)) (U (Proc.devRef .tc main_v15)) (broadcastInDim S100000 ![] bcast_S_S100000 (id (U (Proc.devRef .tc main_cst_3)))) = _
  rw [h12, h15, hz]
  rfl

theorem src_U2 (c : Dev nD) : U2 m c (Proc.devRef .tc main_v3) = Cert.ReferenceIdeal.ReadP.val_main_v3 (F := Ideal) (m ((c.tc : Thread nD τ).loc main_arg1)) :=
  (main_v3_U2_U1 m c).trans (src_U1 m c)
theorem dst_U2 (c : Dev nD) : U2 m c (Proc.devRef .tc main_v6) = Cert.ReferenceIdeal.ReadP.val_main_v6 (F := Ideal) (m ((c.tc : Thread nD τ).loc main_arg1)) :=
  (main_v6_U2_U1 m c).trans (dst_U1 m c)
theorem src_U3 (c : Dev nD) : U3 m c (Proc.devRef .tc main_v3) = Cert.ReferenceIdeal.ReadP.val_main_v3 (F := Ideal) (m ((c.tc : Thread nD τ).loc main_arg1)) :=
  (main_v3_U3_U1 m c).trans (src_U1 m c)
theorem dst_U3 (c : Dev nD) : U3 m c (Proc.devRef .tc main_v6) = Cert.ReferenceIdeal.ReadP.val_main_v6 (F := Ideal) (m ((c.tc : Thread nD τ).loc main_arg1)) :=
  (main_v6_U3_U1 m c).trans (dst_U1 m c)

set_option maxHeartbeats 4000000 in
/-- The edge weights: the product of the two endpoints' inverse square-root degrees. -/
theorem weight_U3 (c : Dev nD) : U3 m c (Proc.devRef .tc main_v32) = Cert.ReferenceIdeal.ReadP.val_main_v32 (F := Ideal) (m ((c.tc : Thread nD τ).loc main_arg1)) := by
  have h3 := src_U2 m c
  have h6 := dst_U2 m c
  have h16 := dinv_U2 m c
  show StableHlo.after seg0c (U2 m c) (Proc.devRef .tc main_v32) = _
  generalize U2 m c = U at h3 h6 h16 ⊢
  after_results_simp
  rw [h3, h6, h16]
  rfl

theorem src_U5 (c : Dev nD) : U5 m c (Proc.devRef .tc main_v3) = Cert.ReferenceIdeal.ReadP.val_main_v3 (F := Ideal) (m ((c.tc : Thread nD τ).loc main_arg1)) :=
  (main_v3_U5_U3 m c).trans (src_U3 m c)
theorem dst_U5 (c : Dev nD) : U5 m c (Proc.devRef .tc main_v6) = Cert.ReferenceIdeal.ReadP.val_main_v6 (F := Ideal) (m ((c.tc : Thread nD τ).loc main_arg1)) :=
  (main_v6_U5_U3 m c).trans (dst_U3 m c)
theorem weight_U5 (c : Dev nD) : U5 m c (Proc.devRef .tc main_v32) = Cert.ReferenceIdeal.ReadP.val_main_v32 (F := Ideal) (m ((c.tc : Thread nD τ).loc main_arg1)) :=
  (main_v32_U5_U3 m c).trans (weight_U3 m c)
theorem src_U7 (c : Dev nD) : U7 m c (Proc.devRef .tc main_v3) = Cert.ReferenceIdeal.ReadP.val_main_v3 (F := Ideal) (m ((c.tc : Thread nD τ).loc main_arg1)) :=
  (main_v3_U7_U5 m c).trans (src_U5 m c)
theorem dst_U7 (c : Dev nD) : U7 m c (Proc.devRef .tc main_v6) = Cert.ReferenceIdeal.ReadP.val_main_v6 (F := Ideal) (m ((c.tc : Thread nD τ).loc main_arg1)) :=
  (main_v6_U7_U5 m c).trans (dst_U5 m c)
theorem weight_U7 (c : Dev nD) : U7 m c (Proc.devRef .tc main_v32) = Cert.ReferenceIdeal.ReadP.val_main_v32 (F := Ideal) (m ((c.tc : Thread nD τ).loc main_arg1)) :=
  (main_v32_U7_U5 m c).trans (weight_U5 m c)

end Cert.ReferenceIdeal.RefValue

end
-- ==== Proof.LibTRef.lean ====
/-
  A typed reference carries a value of its declared type to the type of its buffer and back along the same equation, so
  the round trip is the identity, whatever the equation's proof.
-/
import Idealize.ShloMosaic.Lib.StableHlo

namespace Cert.LibTRef

open Idealize.ShloMosaic Idealize.ShloMosaic.StableHlo

/-- Carried to the buffer's type and back, a value is itself. -/
theorem ofBuf_toBuf {sig : RefSig} {T : BufTy} {Val : EltTy → Type} (x : TRef sig T) (v : T.Contents Val) :
    x.ofBuf (x.toBuf v) = v := by
  obtain ⟨r, h, _, _⟩ := x
  subst h
  rfl

/-- Carried from the buffer's type and back, a value is itself. -/
theorem toBuf_ofBuf {sig : RefSig} {T : BufTy} {Val : EltTy → Type} (x : TRef sig T) (v : x.ref.ty.Contents Val) :
    x.toBuf (x.ofBuf v) = v := by
  obtain ⟨r, h, _, _⟩ := x
  subst h
  rfl

end Cert.LibTRef
-- ==== Proof.RefStagesB.lean ====
/-
  The reference's three layers and its log-softmax, read as stage functions of the arguments, and the run: every weakly fair
  execution ends with the result buffer at the last stage function of the arguments' launch contents, and with the
  arguments unchanged.
-/
import proofs.«131590_j68728066670865_1_alg».proof.Proof.RefStagesA
import proofs.«131590_j68728066670865_1_alg».proof.Proof.LibTRef

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ)

-- a reduction, a gather or a scatter-add enters only as a function of its operands: equal operands, equal results
attribute [local irreducible] Host.reduce Host.reduceAdd Host.gather Host.scatterAdd

set_option maxHeartbeats 4000000 in
/-- Layer 1 before the clamp: the product, the aggregation over the edges and the bias, read off the operations. -/
theorem sum1 (c : Dev nD) : U4 m c (Proc.devRef .tc main_v48) = Cert.ReferenceIdeal.ReadP.val_main_v48 (F := Ideal) (m ((c.tc : Thread nD τ).loc main_arg0)) (m ((c.tc : Thread nD τ).loc main_arg1)) (m ((c.tc : Thread nD τ).loc main_arg2)) (m ((c.tc : Thread nD τ).loc main_arg3)) := by
  have h3 : U3 m c (Proc.devRef .tc main_v3) = _ := src_U3 m c
  have h6 : U3 m c (Proc.devRef .tc main_v6) = _ := dst_U3 m c
  have h32 : U3 m c (Proc.devRef .tc main_v32) = _ := weight_U3 m c
  have hx : U3 m c (Proc.devRef .tc main_arg0) = _ := main_arg0_U3_U0 m c
  have hw : U3 m c (Proc.devRef .tc main_arg2) = _ := main_arg2_U3_U0 m c
  have hb : U3 m c (Proc.devRef .tc main_arg3) = _ := main_arg3_U3_U0 m c
  show StableHlo.after segL1 (U3 m c) (Proc.devRef .tc main_v48) = _
  generalize U3 m c = U at h3 h6 h32 hx hw hb ⊢
  after_results_simp
  rw [h3, h6, h32, hx, hw, hb]
  rfl

/-- Layer 1: the clamp at zero. -/
theorem layer1 (c : Dev nD) : U5 m c (Proc.devRef .tc main_v49) = Cert.ReferenceIdeal.ReadP.val_main_v49 (F := Ideal) (m ((c.tc : Thread nD τ).loc main_arg0)) (m ((c.tc : Thread nD τ).loc main_arg1)) (m ((c.tc : Thread nD τ).loc main_arg2)) (m ((c.tc : Thread nD τ).loc main_arg3)) := by
  have hs := sum1 m c
  show StableHlo.after segR1 (U4 m c) (Proc.devRef .tc main_v49) = _
  generalize U4 m c = U at hs ⊢
  after_results
  simp only [Cert.LibTRef.ofBuf_toBuf]
  show maximumf (F := Ideal) (U (Proc.devRef .tc main_v48)) (broadcastInDim S100000x128 ![] bcast_S_S100000x128 (constant (F := Ideal) S_ .f32 0x00000000#32)) = _
  rw [hs]
  rfl

set_option maxHeartbeats 4000000 in
/-- Layer 2 before the clamp: the product, the aggregation over the edges and the bias, read off the operations. -/
theorem sum2 (c : Dev nD) : U6 m c (Proc.devRef .tc main_v65) = Cert.ReferenceIdeal.ReadP.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have h3 : U5 m c (Proc.devRef .tc main_v3) = _ := src_U5 m c
  have h6 : U5 m c (Proc.devRef .tc main_v6) = _ := dst_U5 m c
  have h32 : U5 m c (Proc.devRef .tc main_v32) = _ := weight_U5 m c
  have hx : U5 m c (Proc.devRef .tc main_v49) = _ := layer1 m c
  have hw : U5 m c (Proc.devRef .tc main_arg4) = _ := main_arg4_U5_U0 m c
  have hb : U5 m c (Proc.devRef .tc main_arg5) = _ := main_arg5_U5_U0 m c
  show StableHlo.after segL2 (U5 m c) (Proc.devRef .tc main_v65) = _
  generalize U5 m c = U at h3 h6 h32 hx hw hb ⊢
  after_results_simp
  rw [h3, h6, h32, hx, hw, hb]
  rfl

/-- Layer 2: the clamp at zero. -/
theorem layer2 (c : Dev nD) : U7 m c (Proc.devRef .tc main_v66) = Cert.ReferenceIdeal.ReadP.val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have hs := sum2 m c
  show StableHlo.after segR2 (U6 m c) (Proc.devRef .tc main_v66) = _
  generalize U6 m c = U at hs ⊢
  after_results
  simp only [Cert.LibTRef.ofBuf_toBuf]
  show maximumf (F := Ideal) (U (Proc.devRef .tc main_v65)) (broadcastInDim S100000x128 ![] bcast_S_S100000x128 (constant (F := Ideal) S_ .f32 0x00000000#32)) = _
  rw [hs]
  rfl

set_option maxHeartbeats 4000000 in
/-- Layer 3 before the clamp: the product, the aggregation over the edges and the bias, read off the operations. -/
theorem sum3 (c : Dev nD) : U8 m c (Proc.devRef .tc main_v82) = Cert.ReferenceIdeal.ReadP.val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have h3 : U7 m c (Proc.devRef .tc main_v3) = _ := src_U7 m c
  have h6 : U7 m c (Proc.devRef .tc main_v6) = _ := dst_U7 m c
  have h32 : U7 m c (Proc.devRef .tc main_v32) = _ := weight_U7 m c
  have hx : U7 m c (Proc.devRef .tc main_v66) = _ := layer2 m c
  have hw : U7 m c (Proc.devRef .tc main_arg6) = _ := main_arg6_U7_U0 m c
  have hb : U7 m c (Proc.devRef .tc main_arg7) = _ := main_arg7_U7_U0 m c
  show StableHlo.after segL3 (U7 m c) (Proc.devRef .tc main_v82) = _
  generalize U7 m c = U at h3 h6 h32 hx hw hb ⊢
  after_results_simp
  rw [h3, h6, h32, hx, hw, hb]
  rfl

/-- Layer 3: the clamp at zero. -/
theorem layer3 (c : Dev nD) : U9 m c (Proc.devRef .tc main_v83) = Cert.ReferenceIdeal.ReadP.val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have hs := sum3 m c
  show StableHlo.after segR3 (U8 m c) (Proc.devRef .tc main_v83) = _
  generalize U8 m c = U at hs ⊢
  after_results
  simp only [Cert.LibTRef.ofBuf_toBuf]
  show maximumf (F := Ideal) (U (Proc.devRef .tc main_v82)) (broadcastInDim S100000x40 ![] bcast_S_S100000x40 (constant (F := Ideal) S_ .f32 0x00000000#32)) = _
  rw [hs]
  rfl

/-! ## The log-softmax, step by step -/

set_option maxRecDepth 65536 in
/-- The rows' maxima of the last layer's output, folded from minus infinity. -/
theorem rowMaxFold (c : Dev nD) : U10 m c (Proc.devRef .tc main_call4_v0) = Cert.ReferenceIdeal.ReadP.val_main_call4_v0 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have hx : U9 m c (Proc.devRef .tc main_v83) = _ := layer3 m c
  show StableHlo.after segF1 (U9 m c) (Proc.devRef .tc main_call4_v0) = _
  generalize U9 m c = U at hx ⊢
  after_results
  simp only [Cert.LibTRef.ofBuf_toBuf]
  show Host.reduce (FloatOps.maximumf (F := Ideal) (φ := .f32)) (U (Proc.devRef .tc main_v83)) (constant (F := Ideal) S_ .f32 0xFF800000#32) reducesTo_S100000x40_S100000_d1 h_S_ = _
  rw [hx]
  rfl

set_option maxRecDepth 65536 in
/-- The same maxima after the maximum with minus infinity. -/
theorem rowMax (c : Dev nD) : U11 m c (Proc.devRef .tc main_call4_v2) = Cert.ReferenceIdeal.ReadP.val_main_call4_v2 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have h0 : U10 m c (Proc.devRef .tc main_call4_v0) = _ := rowMaxFold m c
  show StableHlo.after segF2 (U10 m c) (Proc.devRef .tc main_call4_v2) = _
  generalize U10 m c = U at h0 ⊢
  after_results
  simp only [Cert.LibTRef.ofBuf_toBuf]
  show maximumf (F := Ideal) (broadcastInDim S100000 ![] bcast_S_S100000 (constant (F := Ideal) S_ .f32 0xFF800000#32)) (U (Proc.devRef .tc main_call4_v0)) = _
  rw [h0]
  rfl

set_option maxRecDepth 65536 in
/-- The last layer's output with each row's maximum subtracted. -/
theorem shifted (c : Dev nD) : U12 m c (Proc.devRef .tc main_call4_v5) = Cert.ReferenceIdeal.ReadP.val_main_call4_v5 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have hx : U11 m c (Proc.devRef .tc main_v83) = _ := (main_v83_U11_U9 m c).trans (layer3 m c)
  have h2 : U11 m c (Proc.devRef .tc main_call4_v2) = _ := rowMax m c
  show StableHlo.after segF3 (U11 m c) (Proc.devRef .tc main_call4_v5) = _
  generalize U11 m c = U at hx h2 ⊢
  after_results
  simp only [Cert.LibTRef.ofBuf_toBuf]
  show subf (F := Ideal) (U (Proc.devRef .tc main_v83)) (broadcastInDim S100000x40 ![0, 1] bcast_S100000x1_S100000x40_0_1 (broadcastInDim S100000x1 ![0] bcast_S100000_S100000x1_0 (U (Proc.devRef .tc main_call4_v2)))) = _
  rw [hx, h2]
  rfl

set_option maxRecDepth 65536 in
/-- The rows' sums of exponentials of the shifted array. -/
theorem expSum (c : Dev nD) : U13 m c (Proc.devRef .tc main_call4_v7) = Cert.ReferenceIdeal.ReadP.val_main_call4_v7 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have h5 : U12 m c (Proc.devRef .tc main_call4_v5) = _ := shifted m c
  show StableHlo.after segF4 (U12 m c) (Proc.devRef .tc main_call4_v7) = _
  generalize U12 m c = U at h5 ⊢
  after_results
  simp only [Cert.LibTRef.ofBuf_toBuf]
  show Host.reduceAdd (F := Ideal) (Host.exp (F := Ideal) (U (Proc.devRef .tc main_call4_v5))) (constant (F := Ideal) S_ .f32 0x00000000#32) reducesTo_S100000x40_S100000_d1 h_S_ = _
  rw [h5]
  rfl

set_option maxRecDepth 65536 in
/-- Their logarithms, as a column. -/
theorem logSum (c : Dev nD) : U14 m c (Proc.devRef .tc main_call4_v9) = Cert.ReferenceIdeal.ReadP.val_main_call4_v9 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have h7 : U13 m c (Proc.devRef .tc main_call4_v7) = _ := expSum m c
  show StableHlo.after segF5 (U13 m c) (Proc.devRef .tc main_call4_v9) = _
  generalize U13 m c = U at h7 ⊢
  after_results
  simp only [Cert.LibTRef.ofBuf_toBuf]
  show Host.log (F := Ideal) (broadcastInDim S100000x1 ![0] bcast_S100000_S100000x1_0 (U (Proc.devRef .tc main_call4_v7))) = _
  rw [h7]
  rfl

set_option maxRecDepth 65536 in
/-- The result: the shifted array minus the logarithm of its rows' sums of exponentials. -/
theorem result (c : Dev nD) : U15 m c (Proc.devRef .tc main_v84) = Cert.ReferenceIdeal.ReadP.val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have h5 : U14 m c (Proc.devRef .tc main_call4_v5) = _ := (main_call4_v5_U14_U12 m c).trans (shifted m c)
  have h9 : U14 m c (Proc.devRef .tc main_call4_v9) = _ := logSum m c
  show StableHlo.after segF6 (U14 m c) (Proc.devRef .tc main_v84) = _
  generalize U14 m c = U at h5 h9 ⊢
  after_results
  simp only [Cert.LibTRef.ofBuf_toBuf]
  show subf (F := Ideal) (U (Proc.devRef .tc main_call4_v5)) (broadcastInDim S100000x40 ![0, 1] bcast_S100000x1_S100000x40_0_1 (U (Proc.devRef .tc main_call4_v9))) = _
  rw [h5, h9]
  rfl

/-! ## The run -/

/-- Every weakly fair execution of the reference ends with its result at the last stage function of the arguments'
    launch contents, and with the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v84) = Cert.ReferenceIdeal.ReadP.val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v84).trans ((congrFun (after_ops m c) _).trans (result m c)),
      (h c main_arg0).trans ((congrFun (after_ops m c) _).trans (main_arg0_U15_U0 m c)),
      (h c main_arg1).trans ((congrFun (after_ops m c) _).trans (main_arg1_U15_U0 m c)),
      (h c main_arg2).trans ((congrFun (after_ops m c) _).trans (main_arg2_U15_U0 m c)),
      (h c main_arg3).trans ((congrFun (after_ops m c) _).trans (main_arg3_U15_U0 m c)),
      (h c main_arg4).trans ((congrFun (after_ops m c) _).trans (main_arg4_U15_U0 m c)),
      (h c main_arg5).trans ((congrFun (after_ops m c) _).trans (main_arg5_U15_U0 m c)),
      (h c main_arg6).trans ((congrFun (after_ops m c) _).trans (main_arg6_U15_U0 m c)),
      (h c main_arg7).trans ((congrFun (after_ops m c) _).trans (main_arg7_U15_U0 m c))⟩)
    (run_seq scopedRefs_eq scopedSems_eq defs main (fun _ => ops) main_eq (fun _ => ops_sub) m ρ)

end Cert.ReferenceIdeal.RefValue

end
-- ==== Proof.lean ====
/-
  A three-layer graph convolution with self-loops and symmetric normalisation, followed by a row-wise log-softmax:
  layer(h) = max (A · (h · W) + b, 0), where A aggregates over the edges with weights 1/sqrt(deg(src) · deg(dst)).

  The kernel's program computes the message sources, targets and edge weights on the host exactly as the reference does,
  and keeps on the host the gather, scaling and scatter-add of every aggregation; it runs as pipelined regions, 2000 rows at
  a time, the three products h · W (operands rounded to bf16, accumulated into zero), the three bias-and-clamp steps and
  the log-softmax.  At the ideal values rounding is the identity and a product into a zero accumulator is the plain sum
  over the inner index, so each region's row tiles are restrictions of one whole-array function, equal to the reference's
  corresponding stage: the `dot_general`; the twice-broadcast bias added and the maximum with zero; and the host's
  `log_softmax` (whose extra maximum of the row maximum with minus infinity changes nothing).  No law used needs finite
  inputs, so the precondition is never opened.

  The idealization rewrote nothing, so `preserves` is trivial; the two kernel programs' frames are the generated ones, and
  the reference's frame is its run with the result dropped.
-/
import proofs.«131590_j68728066670865_1_alg».proof.Defs
import proofs.«131590_j68728066670865_1_alg».proof.Proof.Gen.Kernel
import proofs.«131590_j68728066670865_1_alg».proof.Proof.Gen.Kernel.Frame
import proofs.«131590_j68728066670865_1_alg».proof.Proof.Gen.KernelIdeal
import proofs.«131590_j68728066670865_1_alg».proof.Proof.Gen.KernelIdeal.Frame
import proofs.«131590_j68728066670865_1_alg».proof.Proof.Gen.ReferenceIdeal
import proofs.«131590_j68728066670865_1_alg».proof.Proof.Gen.Pre_finite_inputs
import proofs.«131590_j68728066670865_1_alg».proof.Proof.RunValue
import proofs.«131590_j68728066670865_1_alg».proof.Proof.KStages
import proofs.«131590_j68728066670865_1_alg».proof.Proof.RefStagesB
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.RefValue.run m ρ)

/-- From memories agreeing on the eight arguments both idealized programs end with the reference's last stage function of
    those arguments in their result buffers: the kernel by its regions' whole-array functions, the reference by its run. -/
theorem algebraic : Cert.algebraic_KernelIdeal_ReferenceIdeal := by
  intro m ρ m' ρ' _ hagree
  refine ⟨fun c => Cert.ReferenceIdeal.ReadP.val_main_v84 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Stages.result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.RefValue.run m' ρ')
    obtain ⟨e0, e1, e2, e3, e4, e5, e6, e7⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
